-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S128 .f32) (main_arg9 : FVec F S128x128 .f32) (main_arg10 : FVec F S40x128 .f32) (main_arg11 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S40x128 .f32 := Host.absf main_arg10
  let main_cst_16 : FVec F S_ .f32 := constant S_ .f32 0x7F800000#32
  let main_v45 : FVec F S40x128 .f32 := broadcastInDim S40x128 ![] bcast_S_S40x128 main_cst_16
  let main_v46 : IVec S40x128 1 := cmpf .olt main_v44 main_v45
  let main_c_17 : IVec S_ 1 := constantI S_ 1 1#1
  let main_v47 : IVec S_ 1 := (fun x v => Host.reduce IntOp.andi x v reducesTo_S40x128_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S128 .f32) (main_arg6 : FVec F S128x128 .f32) (main_arg7 : FVec F S128x128 .f32) (main_arg8 : FVec F S128 .f32) (main_arg9 : FVec F S128x128 .f32) (main_arg10 : FVec F S40x128 .f32) (main_arg11 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S40x128 .f32) (main_arg11 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S128x40 : Shape := ⟨2, ![128, 40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S5000x128 : Shape := ⟨2, ![5000, 128]⟩
abbrev S1600000x128 : Shape := ⟨2, ![1600000, 128]⟩
abbrev S5000x1 : Shape := ⟨2, ![5000, 1]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩

abbrev nBuf : Space → Nat
  | .hbm => 69
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S40x128, .f32⟩
  | .hbm, ⟨11, _⟩ => ⟨S40, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S128x128, .f32⟩
  | .hbm, ⟨17, _⟩ => ⟨S128x128, .bf16⟩
  | .hbm, ⟨18, _⟩ => ⟨S128x128, .f32⟩
  | .hbm, ⟨19, _⟩ => ⟨S128x128, .bf16⟩
  | .hbm, ⟨20, _⟩ => ⟨S128x128, .f32⟩
  | .hbm, ⟨21, _⟩ => ⟨S128x128, .bf16⟩
  | .hbm, ⟨22, _⟩ => ⟨S128x128, .f32⟩
  | .hbm, ⟨23, _⟩ => ⟨S128x128, .bf16⟩
  | .hbm, ⟨24, _⟩ => ⟨S128x128, .f32⟩
  | .hbm, ⟨25, _⟩ => ⟨S128x128, .bf16⟩
  | .hbm, ⟨26, _⟩ => ⟨S128x40, .f32⟩
  | .hbm, ⟨27, _⟩ => ⟨S128x40, .bf16⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S100000x1, .f32⟩
  | .hbm, ⟨35, _⟩ => ⟨S1x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S1x40, .f32⟩
  | .hbm, ⟨68, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x128, .f32⟩
  | .local _ .vmem, ⟨11, _⟩ => ⟨S5000x128, .f32⟩
  | .local _ .vmem, ⟨12, _⟩ => ⟨S128x128, .bf16⟩
  | .local _ .vmem, ⟨13, _⟩ => ⟨S128x128, .bf16⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S5000x128, .f32⟩
  | .local _ .vmem, ⟨22, _⟩ => ⟨S5000x128, .f32⟩
  | .local _ .vmem, ⟨23, _⟩ => ⟨S128x128, .bf16⟩
  | .local _ .vmem, ⟨24, _⟩ => ⟨S128x128, .bf16⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x40, .bf16⟩
  | .local _ .vmem, ⟨31, _⟩ => ⟨S1x40, .f32⟩
  | .local _ .vmem, ⟨32, _⟩ => ⟨S5000x40, .f32⟩
  | .local _ .vmem, ⟨33, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_v23 : Ref sig .tc := ⟨.hbm, 38, rfl⟩
abbrev main_v24 : Ref sig .tc := ⟨.hbm, 39, rfl⟩
abbrev main_c_1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_3 : Ref sig .tc := ⟨.hbm, 52, rfl⟩
abbrev main_v35 : Ref sig .tc := ⟨.hbm, 53, rfl⟩
abbrev main_v36 : Ref sig .tc := ⟨.hbm, 54, rfl⟩
abbrev main_c_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bitsLt_bf16_f32 : FTy.bits .bf16 < FTy.bits .f32
  transposes_S40x128_S128x40_1_0 : S40x128.Transposes [1, 0] S128x40
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100000x128 : S_.BroadcastsInDim S100000x128 (![] : Fin 0 → Fin S100000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .bf16 = 32 ∨ (Rect.block (s := S128x40) S128x40.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S100000x40.size a
  hwx3_3 : ∀ i : grid3.Coords, EltTy.bits .f32 = 32 ∨ (Rect.block (s := S100000x40) S5000x40.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v46) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x40 : Shape := ⟨2, ![128, 40]⟩
abbrev S100000x40 : Shape := ⟨2, ![100000, 40]⟩
abbrev S1x40 : Shape := ⟨2, ![1, 40]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S40x128, .f32⟩
  | .hbm, ⟨11, _⟩ => ⟨S40, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S128x128, .f32⟩
  | .hbm, ⟨17, _⟩ => ⟨S100000x128, .f32⟩
  | .hbm, ⟨18, _⟩ => ⟨S1x128, .f32⟩
  | .hbm, ⟨19, _⟩ => ⟨S100000x128, .f32⟩
  | .hbm, ⟨20, _⟩ => ⟨S100000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S_, .f32⟩
  | .hbm, ⟨35, _⟩ => ⟨S1600000, .f32⟩
  | .hbm, ⟨36, _⟩ => ⟨S_, .f32⟩
  | .hbm, ⟨37, _⟩ => ⟨S100000, .f32⟩
  | .hbm, ⟨38, _⟩ => ⟨S1600000x1, .i32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S128x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S128x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S_, .f32⟩
  | .hbm, ⟨71, _⟩ => ⟨S1600000, .f32⟩
  | .hbm, ⟨72, _⟩ => ⟨S_, .f32⟩
  | .hbm, ⟨73, _⟩ => ⟨S100000, .f32⟩
  | .hbm, ⟨74, _⟩ => ⟨S1600000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S100000x1, .f32⟩
  | .hbm, ⟨80, _⟩ => ⟨S100000x128, .f32⟩
  | .hbm, ⟨81, _⟩ => ⟨S100000x128, .f32⟩
  | .hbm, ⟨82, _⟩ => ⟨S128x128, .f32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S128x128, .f32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S100000x128, .f32⟩
  | .hbm, ⟨92, _⟩ => ⟨S100000x128, .f32⟩
  | .hbm, ⟨93, _⟩ => ⟨S128x40, .f32⟩
  | .hbm, ⟨94, _⟩ => ⟨S100000x40, .f32⟩
  | .hbm, ⟨95, _⟩ => ⟨S1x40, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S100000, .f32⟩
  | .hbm, ⟨102, _⟩ => ⟨S100000, .f32⟩
  | .hbm, ⟨103, _⟩ => ⟨S100000x1, .f32⟩
  | .hbm, ⟨104, _⟩ => ⟨S100000x40, .f32⟩
  | .hbm, ⟨105, _⟩ => ⟨S100000x40, .f32⟩
  | .hbm, ⟨106, _⟩ => ⟨S100000x40, .f32⟩
  | .hbm, ⟨107, _⟩ => ⟨S_, .f32⟩
  | .hbm, ⟨108, _⟩ => ⟨S100000, .f32⟩
  | .hbm, ⟨109, _⟩ => ⟨S100000x1, .f32⟩
  | .hbm, ⟨110, _⟩ => ⟨S100000x1, .f32⟩
  | .hbm, ⟨111, _⟩ => ⟨S100000x40, .f32⟩
  | .hbm, ⟨112, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call0_cst : Ref sig .tc := ⟨.hbm, 54, rfl⟩
abbrev main_call0_v0 : Ref sig .tc := ⟨.hbm, 55, rfl⟩
abbrev main_v36 : Ref sig .tc := ⟨.hbm, 56, rfl⟩
abbrev main_c_4 : Ref sig .tc := ⟨.hbm, 57, rfl⟩
abbrev main_v37 : Ref sig .tc := ⟨.hbm, 58, rfl⟩
abbrev main_v38 : Ref sig .tc := ⟨.hbm, 59, rfl⟩
abbrev main_c_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call1_cst : Ref sig .tc := ⟨.hbm, 90, rfl⟩
abbrev main_call1_v0 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call2_cst : Ref sig .tc := ⟨.hbm, 98, rfl⟩
abbrev main_call2_v0 : Ref sig .tc := ⟨.hbm, 99, rfl⟩
abbrev main_call2_cst_0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_v6 : Ref sig .tc := ⟨.hbm, 106, rfl⟩
abbrev main_call2_cst_1 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_v70 : Ref sig .tc := ⟨.hbm, 112, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x40_S100000x40_1_0_0_1_n_n_wf : DotDims.WF S100000x128 S128x40 S100000x40 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«143336_j31722628448446_1_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.LibSageLayer.lean ====
/-
  One layer of a mean-aggregating graph network, read at one index on the extended reals.

  A node's new feature vector is relu(mean · Wl + h · Wr + b): `mean` is the sum of the features of the node's
  in-neighbours divided by max(count, 1), `h` the node's own features, `b` a bias row.  Two spellings of the
  layer meet here.  One scales the neighbour sums by the reciprocal 1 / max(count, 1) and adds the two products
  before the bias; the other divides the sums by max(count, 1) and adds the bias between the products.  The
  divisor is at least 1, so it is never zero and the product with the reciprocal is the quotient on every
  extended real; addition of extended reals is commutative and associative, so the three summands may be
  added in either order.  No entry has to be finite for either step.
-/
import Idealize.ShloMosaic.PureOps.Ideal.Laws
import Idealize.ShloMosaic.PureOps.IdealRules
import Idealize.ShloMosaic.Lib.ValueIdx
import Idealize.ShloMosaic.Lib.ValueLayout
import Idealize.ShloMosaic.Lib.IdealHost
import Idealize.ShloMosaic.Lib.Pipeline.Value
import proofs.«143336_j31722628448446_1_alg».proof.Proof.LibRowOps
import proofs.«143336_j31722628448446_1_alg».proof.Proof.LibDense

noncomputable section

namespace Cert.Sage

open Idealize.ShloMosaic Idealize.ShloMosaic.ValueIdx Cert.RowOps Cert.Dense

/-- The value of the f32 word of 1.0. -/
abbrev one : EReal := Ideal.ofBits .f32 0x3F800000#32

theorem one_eq : one = 1 := IdealRules.sign_bit.ideal_onePat .f32

/-! ## The layer as one function of whole arrays -/

/-- relu(A · Wl + X · Wr + b) at (r, c): row r of `A` and of `X`, column c of the weights, entry c of the one-row bias. -/
def layer {M K N : Nat} (A X : FVec Ideal ⟨2, ![M, K]⟩ .f32) (Wl Wr : FVec Ideal ⟨2, ![K, N]⟩ .f32)
    (b : FVec Ideal ⟨2, ![1, N]⟩ .f32) : FVec Ideal ⟨2, ![M, N]⟩ .f32 :=
  fun i => max ((∑ k : Fin K, A (ix2 (i 0) k) * Wl (ix2 k (i 1))) + (∑ k : Fin K, X (ix2 (i 0) k) * Wr (ix2 k (i 1)))
    + b (ix2 (0 : Fin 1) (i 1))) z

theorem layer_apply {M K N : Nat} (A X : FVec Ideal ⟨2, ![M, K]⟩ .f32) (Wl Wr : FVec Ideal ⟨2, ![K, N]⟩ .f32)
    (b : FVec Ideal ⟨2, ![1, N]⟩ .f32) (r : Fin M) (c : Fin N) :
    layer A X Wl Wr b (ix2 r c)
      = max ((∑ k : Fin K, A (ix2 r k) * Wl (ix2 k c)) + (∑ k : Fin K, X (ix2 r k) * Wr (ix2 k c)) + b (ix2 (0 : Fin 1) c)) z := rfl

/-! ## One block of rows (a matmul into a zero accumulator twice, a one-row bias repeated, a maximum with a splat zero) -/

section Block

variable {M K N : Nat} {d : DotDims ⟨2, ![M, K]⟩ ⟨2, ![K, N]⟩ ⟨2, ![M, N]⟩}

theorem blockLayer_apply (hd : IsPlain d) {φ₁ φ₂ : FTy} (a x : FVec Ideal ⟨2, ![M, K]⟩ φ₁) (wl wr : FVec Ideal ⟨2, ![K, N]⟩ φ₂)
    (b : FVec Ideal ⟨2, ![1, N]⟩ .f32) (hb : (⟨2, ![1, N]⟩ : Shape).Broadcasts ⟨2, ![M, N]⟩) (r : Fin M) (c : Fin N) :
    maximumf (addf (addf (matmul d none a wl (constant ⟨2, ![M, N]⟩ .f32 0x00000000#32))
          (matmul d none x wr (constant ⟨2, ![M, N]⟩ .f32 0x00000000#32)))
        (broadcastTo ⟨2, ![M, N]⟩ b hb))
        (broadcast ⟨2, ![M, N]⟩ (Scalar.ofBits (F := Ideal) .f32 0x00000000#32)) (ix2 r c)
      = max ((∑ k : Fin K, a (ix2 r k) * wl (ix2 k c)) + (∑ k : Fin K, x (ix2 r k) * wr (ix2 k c)) + b (ix2 (0 : Fin 1) c)) z := by
  rw [maximumf_apply, addf_apply, addf_apply, broadcastTo_1b_ab_apply, broadcast_apply]
  exact congrArg₂ (fun s u => max (s + u + b (ix2 (0 : Fin 1) c)) z) (matmul_zero_apply hd none a wl r c)
    (matmul_zero_apply hd none x wr r c)

end Block

/-! ## A per-row column repeated along the rows -/

section Column

variable {α : Type} {a b : Nat}

/-- A length-a vector broadcast to an [a, 1] column and then to [a, b] reads, at (p, c), the vector at p. -/
theorem hostColumn_apply (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (c : Fin b) :
    broadcastInDim ⟨2, ![a, b]⟩ ![0, 1] h2 (broadcastInDim ⟨2, ![a, 1]⟩ ![0] h1 v) (ix2 p c) = v (ix1 p) := by
  rw [broadcastInDim_apply ![0, 1] h2 _ (ix2 p c) (ix2 p (0 : Fin 1)) (fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

end Column

/-! ## The mean, two ways -/

/-- A product with the reciprocal of max(n, 1) is the quotient by max(n, 1): the divisor is at least 1, so not zero. -/
theorem mul_recip_max (x n : EReal) : x * Ideal.div one (max n one) = Ideal.div x (max n one) := by
  rw [one_eq]
  exact Idealize.ShloMosaic.Ideal.mul_one_div (lt_of_lt_of_le zero_lt_one (le_max_right n 1)).ne'

section Mean

variable {a b : Nat}

/-- Sums scaled by the per-row reciprocal of max(count, 1) are the sums divided by max(count, 1). -/
theorem mean_eq (S : FVec Ideal ⟨2, ![a, b]⟩ .f32) (cnt : FVec Ideal ⟨1, ![a]⟩ .f32)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1]) :
    mulf S (broadcastInDim ⟨2, ![a, b]⟩ ![0, 1] h2 (broadcastInDim ⟨2, ![a, 1]⟩ ![0] h1
        (Host.divf (broadcastInDim ⟨1, ![a]⟩ ![] h0 (constant (F := Ideal) ⟨0, ![]⟩ .f32 0x3F800000#32))
          (maximumf cnt (broadcastInDim ⟨1, ![a]⟩ ![] h0 (constant (F := Ideal) ⟨0, ![]⟩ .f32 0x3F800000#32))))))
      = Host.divf S (broadcastInDim ⟨2, ![a, b]⟩ ![0, 1] h2 (broadcastInDim ⟨2, ![a, 1]⟩ ![0] h1
          (maximumf cnt (broadcastInDim ⟨1, ![a]⟩ ![] h0 (constant (F := Ideal) ⟨0, ![]⟩ .f32 0x3F800000#32))))) := by
  funext i
  obtain ⟨p, q, rfl⟩ : ∃ (p : Fin a) (q : Fin b), i = ix2 p q := ⟨i 0, i 1, eq_ix2 i⟩
  rw [mulf_apply, hostDivf_apply, hostColumn_apply, hostColumn_apply, hostDivf_apply, maximumf_apply,
    broadcastInDim_scalar_apply, constant_apply]
  exact mul_recip_max _ _

end Mean

/-! ## The layer over whole arrays in the host's spelling -/

section Host

variable {M K N : Nat} {d : DotDims ⟨2, ![M, K]⟩ ⟨2, ![K, N]⟩ ⟨2, ![M, N]⟩}

/-- mean · Wl, plus the bias on every row, plus X · Wr, clipped at zero, is `layer` with the bias viewed as one row. -/
theorem hostLayer_eq (hd : IsPlain d) (Mn X : FVec Ideal ⟨2, ![M, K]⟩ .f32) (Wl Wr : FVec Ideal ⟨2, ![K, N]⟩ .f32)
    (B : FVec Ideal ⟨1, ![N]⟩ .f32)
    (hs : (⟨1, ![N]⟩ : Shape).ShapeCasts ⟨2, ![1, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    layer Mn X Wl Wr (shapeCast ⟨2, ![1, N]⟩ B hs)
      = maximumf (addf (addf (Host.dotGeneral d none Mn Wl)
            (broadcastInDim ⟨2, ![M, N]⟩ ![0, 1] h2 (broadcastInDim ⟨2, ![1, N]⟩ ![1] h1 B)))
          (Host.dotGeneral d none X Wr))
        (broadcastInDim ⟨2, ![M, N]⟩ ![] h0 (constant (F := Ideal) ⟨0, ![]⟩ .f32 0x00000000#32)) := by
  funext i
  obtain ⟨r, c, rfl⟩ : ∃ (r : Fin M) (c : Fin N), i = ix2 r c := ⟨i 0, i 1, eq_ix2 i⟩
  rw [layer_apply, maximumf_apply, addf_apply, addf_apply, hostRowBias_apply, broadcastInDim_scalar_apply, constant_apply,
    show Host.dotGeneral d none Mn Wl (ix2 r c) = _ from hostDot_apply hd none .single Mn Wl r c,
    show Host.dotGeneral d none X Wr (ix2 r c) = _ from hostDot_apply hd none .single X Wr r c,
    shapeCast_a_1a_apply]
  exact congrArg (fun s => max s z) (add_right_comm _ _ _)

end Host

end Cert.Sage

end
-- ==== Proof.Net.lean ====
/-
  The network as functions of whole arrays on the extended reals, and where its entries are real numbers.

  Rows of features pass through an affine map X · W + b; then twice through a layer that divides each row of
  neighbour sums by max(count, 1), multiplies the quotient and the row's own features by two weights, adds a bias and
  clips at zero; then through a last affine map and a row-wise log-softmax x - (m + log Σ exp(x - m)), m the row's maximum.

  Sums and products of real numbers are real, a quotient by a number that is at least 1 is real, and a maximum of
  finitely many reals (at least one) is real: so every entry of every stage is a real number as soon as the inputs'
  are.  This is what the last step needs.  On the extended reals -(m + l) = -m - l fails when m and l are opposite
  infinities; for a real m it holds for every l, and then x - (m + l) = (x - m) - l.
-/
import Idealize.ShloMosaic.PureOps.Ideal.Laws
import Idealize.ShloMosaic.Lib.ValueIdx
import proofs.«143336_j31722628448446_1_alg».proof.Proof.LibRowOps
import proofs.«143336_j31722628448446_1_alg».proof.Proof.LibDense
import proofs.«143336_j31722628448446_1_alg».proof.Proof.LibSageLayer

noncomputable section

namespace Cert.Net

open Idealize.ShloMosaic Idealize.ShloMosaic.ValueIdx

/-- An [a, b] array of extended reals. -/
abbrev Mat (a b : Nat) := (⟨2, ![a, b]⟩ : Shape).Idx → EReal

/-! ## The stages -/

/-- X · W + b at (r, c): row r of X against column c of W, plus entry c of the one-row bias. -/
def affine {M K N : Nat} (X : Mat M K) (W : Mat K N) (b : Mat 1 N) : Mat M N :=
  fun i => (∑ k : Fin K, X (ix2 (i 0) k) * W (ix2 k (i 1))) + b (ix2 (0 : Fin 1) (i 1))

theorem affine_apply {M K N : Nat} (X : Mat M K) (W : Mat K N) (b : Mat 1 N) (r : Fin M) (c : Fin N) :
    affine X W b (ix2 r c) = (∑ k : Fin K, X (ix2 r k) * W (ix2 k c)) + b (ix2 (0 : Fin 1) c) := rfl

/-- Row r of the neighbour sums divided by max(count r, 1), the count held as an [M, 1] column. -/
def mean {M K : Nat} (A : Mat M K) (cnt : Mat M 1) : Mat M K :=
  fun i => Ideal.div (A i) (max (cnt (ix2 (i 0) (0 : Fin 1))) Sage.one)

theorem mean_apply {M K : Nat} (A : Mat M K) (cnt : Mat M 1) (r : Fin M) (k : Fin K) :
    mean A cnt (ix2 r k) = Ideal.div (A (ix2 r k)) (max (cnt (ix2 r (0 : Fin 1))) Sage.one) := rfl

/-- One layer: relu(mean · Wl + X · Wr + b). -/
def sage {M K N : Nat} (A : Mat M K) (cnt : Mat M 1) (X : Mat M K) (Wl Wr : Mat K N) (b : Mat 1 N) : Mat M N :=
  Sage.layer (mean A cnt) X Wl Wr b

/-- The value of the f32 word of -infinity: the start of a running maximum. -/
abbrev negInf : EReal := Ideal.ofBits .f32 0xFF800000#32

/-- The maximum of row r. -/
def rowMax {M N : Nat} (L : Mat M N) (r : Fin M) : EReal :=
  (Finset.univ : Finset (Fin N)).fold max negInf (fun k => L (ix2 r k))

/-- log Σ exp(x - m) over row r, m the row's maximum. -/
def rowLse {M N : Nat} (L : Mat M N) (r : Fin M) : EReal :=
  Ideal.log (∑ k : Fin N, Ideal.exp (L (ix2 r k) - rowMax L r))

/-- Row-wise log-softmax with the maximum and the logarithm joined before the subtraction. -/
def logSoftmax {M N : Nat} (L : Mat M N) : Mat M N :=
  fun i => L i - (rowMax L (i 0) + rowLse L (i 0))

theorem logSoftmax_apply {M N : Nat} (L : Mat M N) (r : Fin M) (c : Fin N) :
    logSoftmax L (ix2 r c) = L (ix2 r c) - (rowMax L r + rowLse L r) := rfl

/-- The same with the maximum subtracted first, then the logarithm. -/
def logSoftmaxShifted {M N : Nat} (L : Mat M N) : Mat M N :=
  fun i => (L i - rowMax L (i 0)) - rowLse L (i 0)

/-! ## Real entries -/

/-- Every entry is a real number. -/
def IsReal {ι : Type} (v : ι → EReal) : Prop := ∀ i, ∃ r : ℝ, v i = (r : EReal)

theorem negInf_eq : negInf = ⊥ := by simp [negInf, Ideal.ofBits, Ideal.ieee]

/-- A finite sum of reals, read in the extended reals, is the real sum. -/
theorem coe_sum {κ : Type} (s : Finset κ) (g : κ → ℝ) : ∑ k ∈ s, (g k : EReal) = ((∑ k ∈ s, g k : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max).symm

/-- An extended real that is neither infinity is a real. -/
theorem real_of_ne {x : EReal} (h1 : x ≠ ⊤) (h2 : x ≠ ⊥) : ∃ r : ℝ, x = (r : EReal) :=
  ⟨x.toReal, (EReal.coe_toReal h1 h2).symm⟩

theorem affine_real {M K N : Nat} {X : Mat M K} {W : Mat K N} {b : Mat 1 N}
    (hX : IsReal X) (hW : IsReal W) (hb : IsReal b) : IsReal (affine X W b) := by
  intro i
  choose x hx using hX
  choose w hw using hW
  choose β hβ using hb
  refine ⟨(∑ k : Fin K, x (ix2 (i 0) k) * w (ix2 k (i 1))) + β (ix2 (0 : Fin 1) (i 1)), ?_⟩
  unfold affine
  simp only [hx, hw, hβ, ← EReal.coe_mul, coe_sum, ← EReal.coe_add]

theorem mean_real {M K : Nat} {A : Mat M K} {cnt : Mat M 1} (hA : IsReal A) (hc : IsReal cnt) : IsReal (mean A cnt) := by
  intro i
  obtain ⟨a, ha⟩ := hA i
  obtain ⟨n, hn⟩ := hc (ix2 (i 0) (0 : Fin 1))
  have h1 : max n 1 ≠ 0 := (lt_of_lt_of_le zero_lt_one (le_max_right n 1)).ne'
  refine ⟨a * (1 / max n 1), ?_⟩
  unfold mean
  rw [ha, hn, Sage.one_eq, ← EReal.coe_one, coe_max, Ideal.div_coe h1, ← EReal.coe_mul]

theorem sage_real {M K N : Nat} {A : Mat M K} {cnt : Mat M 1} {X : Mat M K} {Wl Wr : Mat K N} {b : Mat 1 N}
    (hA : IsReal A) (hc : IsReal cnt) (hX : IsReal X) (hl : IsReal Wl) (hr : IsReal Wr) (hb : IsReal b) :
    IsReal (sage A cnt X Wl Wr b) := by
  intro i
  choose a ha using mean_real hA hc
  choose x hx using hX
  choose wl hwl using hl
  choose wr hwr using hr
  choose β hβ using hb
  refine ⟨max ((∑ k : Fin K, a (ix2 (i 0) k) * wl (ix2 k (i 1))) + (∑ k : Fin K, x (ix2 (i 0) k) * wr (ix2 k (i 1)))
    + β (ix2 (0 : Fin 1) (i 1))) 0, ?_⟩
  unfold sage Sage.layer
  simp only [ha, hx, hwl, hwr, hβ, ← EReal.coe_mul, coe_sum, ← EReal.coe_add, Dense.z, Ideal.ofBits_zero_f32,
    ← EReal.coe_zero, coe_max]

/-- A gather reads entries of its operand. -/
theorem gather_real {s si t : Shape} {w : Nat} (d : GatherDims s si t) {x : s.Idx → EReal} (idx : IVec si w)
    (hx : IsReal x) : IsReal (Host.gather d x idx) := fun j => hx _

/-- An accumulating scatter adds, to each entry of its operand, finitely many update entries. -/
theorem scatterAdd_real {s si su : Shape} {w : Nat} (d : ScatterDims s si su) {x : s.Idx → EReal} (idx : IVec si w)
    {upd : su.Idx → EReal} (hx : IsReal x) (hu : IsReal upd) : IsReal (Ideal.hostScatterAdd d x idx upd) := by
  intro i
  obtain ⟨a, ha⟩ := hx i
  choose u hu' using hu
  refine ⟨a + ∑ j ∈ Finset.univ.filter (fun j => d.resultIdx? j idx = some i), u j, ?_⟩
  unfold Ideal.hostScatterAdd
  simp only [ha, hu', coe_sum, ← EReal.coe_add]

/-- The maximum of a non-empty row of reals is a real. -/
theorem rowMax_real {M N : Nat} {L : Mat M N} (hL : IsReal L) (hN : 0 < N) (r : Fin M) : ∃ m : ℝ, rowMax L r = (m : EReal) := by
  choose ℓ hℓ using hL
  refine real_of_ne (ne_of_lt ?_) (ne_of_gt ?_)
  · unfold rowMax
    rw [Finset.fold_max_lt, negInf_eq]
    exact ⟨bot_lt_top, fun k _ => by rw [hℓ]; exact EReal.coe_lt_top _⟩
  · unfold rowMax
    rw [Finset.lt_fold_max]
    exact Or.inr ⟨⟨0, hN⟩, Finset.mem_univ _, by rw [hℓ]; exact EReal.bot_lt_coe _⟩

/-! ## The two spellings of the log-softmax agree on real rows -/

/-- For a real m: x - (m + l) = (x - m) - l, whatever x and l are. -/
theorem sub_add_real (x l : EReal) (m : ℝ) : x - ((m : EReal) + l) = (x - (m : EReal)) - l := by
  simp only [sub_eq_add_neg]
  rw [EReal.neg_add (Or.inl (EReal.coe_ne_bot m)) (Or.inl (EReal.coe_ne_top m)), sub_eq_add_neg, add_assoc]

theorem logSoftmax_eq_shifted {M N : Nat} {L : Mat M N} (hL : IsReal L) (hN : 0 < N) :
    logSoftmax L = logSoftmaxShifted L := by
  funext i
  obtain ⟨m, hm⟩ := rowMax_real hL hN (i 0)
  unfold logSoftmax logSoftmaxShifted
  rw [hm]
  exact sub_add_real _ _ m

end Cert.Net

end
-- ==== Proof.PreLinear.lean ====
/-
  The pre-linear layer's region: what its output array holds when the region ends.

  The region runs over 20 grid points.  Point t loads rows 5000·t … 5000·t + 4999 of the input array, the whole
  weight and the whole one-row bias, computes (rows · weight) + bias, and writes the result back as the same rows of
  the output array.  The 20 row blocks tile the output, so the array ends at X · W + b of the arrays the region was
  entered with, row by row.
-/
import proofs.«143336_j31722628448446_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«143336_j31722628448446_1_alg».proof.Proof.Net

set_option maxRecDepth 16384

noncomputable section

namespace Cert.KernelIdeal.PreLinear

open Cert.KernelIdeal Cert.KernelIdeal.Gen Idealize.ShloMosaic Idealize.ShloMosaic.TcCoe Idealize.ShloMosaic.ValueIdx
open Idealize.SL.Sem
open Cert.RowOps Cert.Net

variable (V : (c : Dev nD) → (b : Ref sig .tc) → Buf (Elt Ideal) ((c : Thread nD τ).loc b))

theorem hz : (![0, 0] : Fin 2 → Nat) = fun _ => 0 := funext fun a => by fin_cases a <;> rfl

theorem plain : IsPlain dot_S5000x128_S128x128_S5000x128_1_0_0_1_n_n := ⟨rfl, rfl, rfl, rfl, rfl, rfl⟩

/-- The body's result at row p, column q of a block: row p of the loaded rows against column q of the weight, plus
    entry q of the bias row. -/
theorem payload_apply (x0 : FVec Ideal S5000x128 .f32) (x1 : FVec Ideal S128x128 .bf16) (x2 : FVec Ideal S1x128 .f32)
    (p : Fin 5000) (q : Fin 128) :
    k0_pay1 (F := Ideal) x0 x1 x2 (ix2 p q) = (∑ k : Fin 128, x0 (ix2 p k) * x1 (ix2 k q)) + x2 (ix2 (0 : Fin 1) q) := by
  unfold k0_pay1
  rw [addf_apply, broadcastTo_1b_ab_apply, shapeCast_self, shapeCast_self]
  exact congrArg (· + x2 (ix2 (0 : Fin 1) q)) (matmul_zero_apply plain none _ x1 p q)

/-- The printed index maps over the grid: the row windows sit at block t, everything else at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block is row 5000·t + p of the array. -/
def row (t : Fin cfg0.N) (p : Fin 5000) : Fin 100000 :=
  ⟨t.val * 5000 + p.val, by have h : t.val < 20 := (N_0 ▸ t.isLt); have := p.isLt; omega⟩

variable (c : Dev nD)

theorem in_rows (t : Fin cfg0.N) (p : Fin 5000) (k : Fin 128) :
    iblk0 V c 0 t (ix2 p k) = V c main_arg0 (ix2 (row t p) k) := by
  obtain ⟨e0, e1, -⟩ := idx_facts t
  show V c main_arg0 (((cfg0.win 0).blk t).view.emb (ix2 p k)) = V c main_arg0 (ix2 (row t p) k)
  congr 1
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem in_weight (t : Fin cfg0.N) (k q : Fin 128) :
    iblk0 V c 1 t (ix2 k q) = V c main_v5 (ix2 k q) := by
  obtain ⟨-, -, e2, e3, -⟩ := idx_facts t
  show V c main_v5 (((cfg0.win 1).blk t).view.emb (ix2 k q)) = V c main_v5 (ix2 k q)
  congr 1
  funext a; apply Fin.ext
  match a with
  | ⟨0, _⟩ => show win0_1.index t (0 : Fin 2) * 128 + 1 * k.val = k.val; omega
  | ⟨1, _⟩ => show win0_1.index t (1 : Fin 2) * 128 + 1 * q.val = q.val; omega

theorem in_bias (t : Fin cfg0.N) (q : Fin 128) :
    iblk0 V c 2 t (ix2 (0 : Fin 1) q) = V c main_v21 (ix2 (0 : Fin 1) q) := by
  obtain ⟨-, -, -, -, e4, e5, -⟩ := idx_facts t
  show V c main_v21 (((cfg0.win 2).blk t).view.emb (ix2 (0 : Fin 1) q)) = V c main_v21 (ix2 (0 : Fin 1) q)
  congr 1
  funext a; apply Fin.ext
  match a with
  | ⟨0, _⟩ => show win0_2.index t (0 : Fin 2) * 1 + 1 * 0 = 0; omega
  | ⟨1, _⟩ => show win0_2.index t (1 : Fin 2) * 128 + 1 * q.val = q.val; omega

theorem out_rows (t : Fin cfg0.N) (p : Fin 5000) (q : Fin 128) :
    ((cfg0.win 3).blk t).view.emb (ix2 p q) = ix2 (row t p) q := by
  obtain ⟨-, -, -, -, -, -, e6, e7⟩ := idx_facts t
  funext a; apply Fin.ext
  match a with
  | ⟨0, _⟩ => show win0_3.index t (0 : Fin 2) * 5000 + 1 * p.val = t.val * 5000 + p.val; omega
  | ⟨1, _⟩ => show win0_3.index t (1 : Fin 2) * 128 + 1 * q.val = q.val; omega

/-- What the output array holds when the region ends, as a function of the arrays it was entered with. -/
abbrev result : Mat 100000 128 := affine (V c main_arg0) (V c main_v5) (V c main_v21)

/-- What point t writes back is block t of `result`. -/
theorem flushed_eq (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = affine (V c main_arg0) (V c main_v5) (V c main_v21) (((cfg0.win 3).blk t).view.emb (ix2 p q))
  rw [out_rows, affine_apply]
  refine (payload_apply _ _ _ p q).trans ?_
  rw [in_bias]
  exact congrArg (· + _) (Finset.sum_congr rfl fun k _ => by rw [in_rows, in_weight])

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v22).slice (win0_3.rect t)).set ↔ _
  rw [View.set_slice_whole, Rect.mem_set_unit]
  exact Iff.rfl

/-- Every index of the output array is in the block of the point that owns its row. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 5000, by show _ < grid0.N; rw [N_0]; omega⟩
  obtain ⟨-, -, -, -, -, -, e6, e7⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array when the region ends. -/
theorem final : (dat0 V c).arrAt 3 cfg0.N = result V c :=
  (dat0 V c).arrAt_eq_of_cover 3 (result V c) (fun t _ => flushed_eq V c t) (cover)

end Cert.KernelIdeal.PreLinear

end
-- ==== Proof.FoldA.lean ====
/-
  The buffer contents at the program's boundaries, in closed form: the first stretch of host operations and the
  pre-linear region.

  The first stretch slices the edge list into its source and target rows, transposes each weight and changes its
  format (the identity on extended reals), counts each node's incoming edges by an accumulating scatter of ones and
  views the counts as an [·, 1] column, and views the first bias as one row.  The region that follows leaves
  h0 = X · W + b in its output array and every other buffer as it found it.
-/
import proofs.«143336_j31722628448446_1_alg».proof.Proof.Gen.KernelIdeal.Frame
import Idealize.ShloMosaic.Lib.StableHlo.Run
import Idealize.ShloMosaic.PureOps.Ideal.Laws
import proofs.«143336_j31722628448446_1_alg».proof.Proof.Net
import proofs.«143336_j31722628448446_1_alg».proof.Proof.PreLinear

set_option maxRecDepth 16384

noncomputable section

namespace Cert.KernelIdeal.Fold

open Cert.KernelIdeal Cert.KernelIdeal.Gen Idealize.ShloMosaic Idealize.ShloMosaic.TcCoe Idealize.ShloMosaic.StableHlo
open Idealize.SL.Sem Cert.Net

variable (m : (ℓ : Loc nD τ sig) → Buf (Elt Ideal) ℓ) (ρ : Dev nD → PrngReg) (c : Dev nD)

/-- The contents of an argument buffer at launch. -/
abbrev arg (b : Ref sig .tc) : Buf (Elt Ideal) ((c.tc : Thread nD τ).loc b) := m ((c.tc : Thread nD τ).loc b)

/-- The edges' source nodes: row 0 of the edge list. -/
def src : IVec S1600000 32 :=
  shapeCast S1600000 (extractStridedSlice S1x1600000 ![0, 0] (arg m c main_arg1) slices_S2x1600000_S1x1600000_0_0)
    shapeCasts_S1x1600000_S1600000

/-- The edges' target nodes: row 1 of the edge list. -/
def dst : IVec S1600000 32 :=
  shapeCast S1600000 (extractStridedSlice S1x1600000 ![1, 0] (arg m c main_arg1) slices_S2x1600000_S1x1600000_1_0)
    shapeCasts_S1x1600000_S1600000

/-- A [128, 128] weight transposed, in the matrix unit's input format. -/
def wT (W : FVec Ideal S128x128 .f32) : FVec Ideal S128x128 .bf16 :=
  truncf .bf16 (transpose S128x128 [1, 0] W transposes_S128x128_S128x128_1_0) bitsLt_bf16_f32

/-- The [40, 128] weight transposed, in the matrix unit's input format. -/
def wqT (W : FVec Ideal S40x128 .f32) : FVec Ideal S128x40 .bf16 :=
  truncf .bf16 (transpose S128x40 [1, 0] W transposes_S40x128_S128x40_1_0) bitsLt_bf16_f32

/-- A length-128 bias as one row. -/
def rowOf (b : FVec Ideal S128 .f32) : FVec Ideal S1x128 .f32 := shapeCast S1x128 b shapeCasts_S128_S1x128

/-- The length-40 bias as one row. -/
def rowOfQ (b : FVec Ideal S40 .f32) : FVec Ideal S1x40 .f32 := shapeCast S1x40 b shapeCasts_S40_S1x40

/-- The number of edges into each node, as an [·, 1] column: ones scattered onto zeros at the target nodes. -/
def cnt2 : FVec Ideal S100000x1 .f32 :=
  shapeCast S100000x1
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (dst m c))
      (broadcastInDim S1600000 ![] bcast_S_S1600000 (constant (F := Ideal) S_ .f32 0x3F800000#32)))
    shapeCasts_S100000_S100000x1

/-- The neighbour sums of features h: each edge's source row gathered (a negative index wrapped by the node
    count), scattered onto zeros at the edge's target node. -/
def agg (s d : IVec S1600000 32) (h : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The features after the pre-linear layer. -/
def h0 : Mat 100000 128 := affine (arg m c main_arg0) (wT (arg m c main_arg2)) (rowOf (arg m c main_arg3))

/-- The features after the first layer. -/
def h1 : Mat 100000 128 :=
  sage (agg (src m c) (dst m c) (h0 m c)) (cnt2 m c) (h0 m c) (wT (arg m c main_arg4)) (wT (arg m c main_arg6)) (rowOf (arg m c main_arg5))

/-- The features after the second layer. -/
def h2 : Mat 100000 128 :=
  sage (agg (src m c) (dst m c) (h1 m c)) (cnt2 m c) (h1 m c) (wT (arg m c main_arg7)) (wT (arg m c main_arg9)) (rowOf (arg m c main_arg8))

/-- The result: the row-wise log-softmax of the logits. -/
def out : Mat 100000 40 := logSoftmax (affine (h2 m c) (wqT (arg m c main_arg10)) (rowOfQ (arg m c main_arg11)))

/-! ## After the first stretch -/

theorem W1_v1 : W1 m ρ c (Proc.devRef .tc main_v1) = src m c := by
  show StableHlo.after hostOps0 (W0 m ρ c) (Proc.devRef .tc main_v1) = _
  after_results <;> rfl

theorem W1_v3 : W1 m ρ c (Proc.devRef .tc main_v3) = dst m c := by
  show StableHlo.after hostOps0 (W0 m ρ c) (Proc.devRef .tc main_v3) = _
  after_results <;> rfl

theorem W1_v5 : W1 m ρ c (Proc.devRef .tc main_v5) = wT (arg m c main_arg2) := by
  show StableHlo.after hostOps0 (W0 m ρ c) (Proc.devRef .tc main_v5) = _
  after_results <;> rfl

theorem W1_v7 : W1 m ρ c (Proc.devRef .tc main_v7) = wT (arg m c main_arg4) := by
  show StableHlo.after hostOps0 (W0 m ρ c) (Proc.devRef .tc main_v7) = _
  after_results <;> rfl

theorem W1_v9 : W1 m ρ c (Proc.devRef .tc main_v9) = wT (arg m c main_arg6) := by
  show StableHlo.after hostOps0 (W0 m ρ c) (Proc.devRef .tc main_v9) = _
  after_results <;> rfl

theorem W1_v11 : W1 m ρ c (Proc.devRef .tc main_v11) = wT (arg m c main_arg7) := by
  show StableHlo.after hostOps0 (W0 m ρ c) (Proc.devRef .tc main_v11) = _
  after_results <;> rfl

theorem W1_v13 : W1 m ρ c (Proc.devRef .tc main_v13) = wT (arg m c main_arg9) := by
  show StableHlo.after hostOps0 (W0 m ρ c) (Proc.devRef .tc main_v13) = _
  after_results <;> rfl

theorem W1_v15 : W1 m ρ c (Proc.devRef .tc main_v15) = wqT (arg m c main_arg10) := by
  show StableHlo.after hostOps0 (W0 m ρ c) (Proc.devRef .tc main_v15) = _
  after_results <;> rfl

theorem W1_v20 : W1 m ρ c (Proc.devRef .tc main_v20) = cnt2 m c := by
  show StableHlo.after hostOps0 (W0 m ρ c) (Proc.devRef .tc main_v20) = _
  after_results <;> rfl

theorem W1_v21 : W1 m ρ c (Proc.devRef .tc main_v21) = rowOf (arg m c main_arg3) := by
  show StableHlo.after hostOps0 (W0 m ρ c) (Proc.devRef .tc main_v21) = _
  after_results <;> rfl

theorem W1_arg0 : W1 m ρ c (Proc.devRef .tc main_arg0) = arg m c main_arg0 := by
  show StableHlo.after hostOps0 (W0 m ρ c) (Proc.devRef .tc main_arg0) = _
  after_results <;> rfl

theorem W1_arg5 : W1 m ρ c (Proc.devRef .tc main_arg5) = arg m c main_arg5 := by
  show StableHlo.after hostOps0 (W0 m ρ c) (Proc.devRef .tc main_arg5) = _
  after_results <;> rfl

theorem W1_arg8 : W1 m ρ c (Proc.devRef .tc main_arg8) = arg m c main_arg8 := by
  show StableHlo.after hostOps0 (W0 m ρ c) (Proc.devRef .tc main_arg8) = _
  after_results <;> rfl

theorem W1_arg11 : W1 m ρ c (Proc.devRef .tc main_arg11) = arg m c main_arg11 := by
  show StableHlo.after hostOps0 (W0 m ρ c) (Proc.devRef .tc main_arg11) = _
  after_results <;> rfl

/-! ## After the pre-linear region -/

theorem W2_v22 : W2 m ρ c (Proc.devRef .tc main_v22) = h0 m c :=
  (W2_arr m ρ c 3).trans ((PreLinear.final (V1 m ρ) c).trans (by
    show affine (W1 m ρ c (Proc.devRef .tc main_arg0)) (W1 m ρ c (Proc.devRef .tc main_v5)) (W1 m ρ c (Proc.devRef .tc main_v21)) = _
    rw [W1_arg0, W1_v5, W1_v21] <;> rfl))

theorem W2_v1 : W2 m ρ c (Proc.devRef .tc main_v1) = src m c :=
  (W2_of_ne m ρ c main_v1 (by decide)).trans (W1_v1 m ρ c)

theorem W2_v3 : W2 m ρ c (Proc.devRef .tc main_v3) = dst m c :=
  (W2_of_ne m ρ c main_v3 (by decide)).trans (W1_v3 m ρ c)

theorem W2_v7 : W2 m ρ c (Proc.devRef .tc main_v7) = wT (arg m c main_arg4) :=
  (W2_of_ne m ρ c main_v7 (by decide)).trans (W1_v7 m ρ c)

theorem W2_v9 : W2 m ρ c (Proc.devRef .tc main_v9) = wT (arg m c main_arg6) :=
  (W2_of_ne m ρ c main_v9 (by decide)).trans (W1_v9 m ρ c)

theorem W2_v11 : W2 m ρ c (Proc.devRef .tc main_v11) = wT (arg m c main_arg7) :=
  (W2_of_ne m ρ c main_v11 (by decide)).trans (W1_v11 m ρ c)

theorem W2_v13 : W2 m ρ c (Proc.devRef .tc main_v13) = wT (arg m c main_arg9) :=
  (W2_of_ne m ρ c main_v13 (by decide)).trans (W1_v13 m ρ c)

theorem W2_v15 : W2 m ρ c (Proc.devRef .tc main_v15) = wqT (arg m c main_arg10) :=
  (W2_of_ne m ρ c main_v15 (by decide)).trans (W1_v15 m ρ c)

theorem W2_v20 : W2 m ρ c (Proc.devRef .tc main_v20) = cnt2 m c :=
  (W2_of_ne m ρ c main_v20 (by decide)).trans (W1_v20 m ρ c)

theorem W2_arg5 : W2 m ρ c (Proc.devRef .tc main_arg5) = arg m c main_arg5 :=
  (W2_of_ne m ρ c main_arg5 (by decide)).trans (W1_arg5 m ρ c)

theorem W2_arg8 : W2 m ρ c (Proc.devRef .tc main_arg8) = arg m c main_arg8 :=
  (W2_of_ne m ρ c main_arg8 (by decide)).trans (W1_arg8 m ρ c)

theorem W2_arg11 : W2 m ρ c (Proc.devRef .tc main_arg11) = arg m c main_arg11 :=
  (W2_of_ne m ρ c main_arg11 (by decide)).trans (W1_arg11 m ρ c)

end Cert.KernelIdeal.Fold

end
-- ==== Proof.LayerOne.lean ====
/-
  The first layer's region: what its output array holds when the region ends.

  The region runs over 20 grid points.  Point t loads rows 5000·t … 5000·t + 4999 of the neighbour sums, of the
  neighbour counts (an [·, 1] column) and of the features, and the two whole weights and the one-row bias; it divides
  each row of sums by max(count, 1), multiplies the quotient and the features by their weights, adds the products and
  the bias, clips at zero, and writes the result back as the same rows of the output array.  Row r of the result
  depends on row r of the three row-blocked arrays only, and the 20 row blocks tile the output: the array ends at the
  layer of the arrays the region was entered with.
-/
import proofs.«143336_j31722628448446_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«143336_j31722628448446_1_alg».proof.Proof.Net

set_option maxRecDepth 16384

noncomputable section

namespace Cert.KernelIdeal.LayerOne

open Cert.KernelIdeal Cert.KernelIdeal.Gen Idealize.ShloMosaic Idealize.ShloMosaic.TcCoe Idealize.ShloMosaic.ValueIdx
open Idealize.SL.Sem
open Cert.RowOps Cert.Net

variable (V : (c : Dev nD) → (b : Ref sig .tc) → Buf (Elt Ideal) ((c : Thread nD τ).loc b))

theorem hz : (![0, 0] : Fin 2 → Nat) = fun _ => 0 := funext fun a => by fin_cases a <;> rfl

theorem plain : IsPlain dot_S5000x128_S128x128_S5000x128_1_0_0_1_n_n := ⟨rfl, rfl, rfl, rfl, rfl, rfl⟩

/-- The body's result at row p, column q of a block is the layer of the loaded blocks there. -/
theorem payload_apply (cnt : FVec Ideal S5000x1 .f32) (a x : FVec Ideal S5000x128 .f32) (wl wr : FVec Ideal S128x128 .bf16)
    (b : FVec Ideal S1x128 .f32) (p : Fin 5000) (q : Fin 128) :
    k1_pay1 (F := Ideal) cnt a x wl wr b (ix2 p q) = sage a cnt x wl wr b (ix2 p q) := by
  unfold k1_pay1
  simp only [shapeCast_self]
  refine (Sage.blockLayer_apply plain _ _ wl wr b broadcasts_S1x128_S5000x128 p q).trans ?_
  show _ = Sage.layer (mean a cnt) x wl wr b (ix2 p q)
  rw [Sage.layer_apply]
  simp only [truncf_apply, divf_apply, spread_apply, maximumf_apply, broadcast_apply, mean_apply]
  rfl

/-- The printed index maps over the grid: the row windows sit at block t, the weights and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of point t's block is row 5000·t + p of the array. -/
def row (t : Fin cfg1.N) (p : Fin 5000) : Fin 100000 :=
  ⟨t.val * 5000 + p.val, by have h : t.val < 20 := (N_1 ▸ t.isLt); have := p.isLt; omega⟩

variable (c : Dev nD)

theorem in_sums (t : Fin cfg1.N) (p : Fin 5000) (k : Fin 128) :
    iblk1 V c 0 t (ix2 p k) = V c main_v32 (ix2 (row t p) k) := by
  obtain ⟨e0, e1, -⟩ := idx_facts t
  show V c main_v32 (((cfg1.win 0).blk t).view.emb (ix2 p k)) = V c main_v32 (ix2 (row t p) k)
  congr 1
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

theorem in_count (t : Fin cfg1.N) (p : Fin 5000) :
    iblk1 V c 1 t (ix2 p (0 : Fin 1)) = V c main_v20 (ix2 (row t p) (0 : Fin 1)) := by
  obtain ⟨-, -, e2, e3, -⟩ := idx_facts t
  show V c main_v20 (((cfg1.win 1).blk t).view.emb (ix2 p (0 : Fin 1))) = V c main_v20 (ix2 (row t p) (0 : Fin 1))
  congr 1
  funext a; apply Fin.ext
  match a with
  | ⟨0, _⟩ => show win1_1.index t (0 : Fin 2) * 5000 + 1 * p.val = t.val * 5000 + p.val; omega
  | ⟨1, _⟩ => show win1_1.index t (1 : Fin 2) * 1 + 1 * 0 = 0; omega

theorem in_feat (t : Fin cfg1.N) (p : Fin 5000) (k : Fin 128) :
    iblk1 V c 2 t (ix2 p k) = V c main_v22 (ix2 (row t p) k) := by
  obtain ⟨-, -, -, -, e4, e5, -⟩ := idx_facts t
  show V c main_v22 (((cfg1.win 2).blk t).view.emb (ix2 p k)) = V c main_v22 (ix2 (row t p) k)
  congr 1
  funext a; apply Fin.ext
  match a with
  | ⟨0, _⟩ => show win1_2.index t (0 : Fin 2) * 5000 + 1 * p.val = t.val * 5000 + p.val; omega
  | ⟨1, _⟩ => show win1_2.index t (1 : Fin 2) * 128 + 1 * k.val = k.val; omega

theorem in_wl (t : Fin cfg1.N) (k q : Fin 128) :
    iblk1 V c 3 t (ix2 k q) = V c main_v7 (ix2 k q) := by
  obtain ⟨-, -, -, -, -, -, e6, e7, -⟩ := idx_facts t
  show V c main_v7 (((cfg1.win 3).blk t).view.emb (ix2 k q)) = V c main_v7 (ix2 k q)
  congr 1
  funext a; apply Fin.ext
  match a with
  | ⟨0, _⟩ => show win1_3.index t (0 : Fin 2) * 128 + 1 * k.val = k.val; omega
  | ⟨1, _⟩ => show win1_3.index t (1 : Fin 2) * 128 + 1 * q.val = q.val; omega

theorem in_wr (t : Fin cfg1.N) (k q : Fin 128) :
    iblk1 V c 4 t (ix2 k q) = V c main_v9 (ix2 k q) := by
  obtain ⟨-, -, -, -, -, -, -, -, e8, e9, -⟩ := idx_facts t
  show V c main_v9 (((cfg1.win 4).blk t).view.emb (ix2 k q)) = V c main_v9 (ix2 k q)
  congr 1
  funext a; apply Fin.ext
  match a with
  | ⟨0, _⟩ => show win1_4.index t (0 : Fin 2) * 128 + 1 * k.val = k.val; omega
  | ⟨1, _⟩ => show win1_4.index t (1 : Fin 2) * 128 + 1 * q.val = q.val; omega

theorem in_bias (t : Fin cfg1.N) (q : Fin 128) :
    iblk1 V c 5 t (ix2 (0 : Fin 1) q) = V c main_v33 (ix2 (0 : Fin 1) q) := by
  obtain ⟨-, -, -, -, -, -, -, -, -, -, e10, e11, -⟩ := idx_facts t
  show V c main_v33 (((cfg1.win 5).blk t).view.emb (ix2 (0 : Fin 1) q)) = V c main_v33 (ix2 (0 : Fin 1) q)
  congr 1
  funext a; apply Fin.ext
  match a with
  | ⟨0, _⟩ => show win1_5.index t (0 : Fin 2) * 1 + 1 * 0 = 0; omega
  | ⟨1, _⟩ => show win1_5.index t (1 : Fin 2) * 128 + 1 * q.val = q.val; omega

theorem out_rows (t : Fin cfg1.N) (p : Fin 5000) (q : Fin 128) :
    ((cfg1.win 6).blk t).view.emb (ix2 p q) = ix2 (row t p) q := by
  obtain ⟨-, -, -, -, -, -, -, -, -, -, -, -, e12, e13⟩ := idx_facts t
  funext a; apply Fin.ext
  match a with
  | ⟨0, _⟩ => show win1_6.index t (0 : Fin 2) * 5000 + 1 * p.val = t.val * 5000 + p.val; omega
  | ⟨1, _⟩ => show win1_6.index t (1 : Fin 2) * 128 + 1 * q.val = q.val; omega

/-- What the output array holds when the region ends, as a function of the arrays it was entered with. -/
abbrev result : Mat 100000 128 :=
  sage (V c main_v32) (V c main_v20) (V c main_v22) (V c main_v7) (V c main_v9) (V c main_v33)

/-- What point t writes back is block t of `result`. -/
theorem flushed_eq (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz,
    View.ld_unit_zero (S := S1x128) hz]
  funext j
  obtain ⟨p, q, rfl⟩ : ∃ (p : Fin 5000) (q : Fin 128), j = ix2 p q := ⟨j 0, j 1, eq_ix2 j⟩
  show k1_pay1 (F := Ideal) (iblk1 V c 1 t) (iblk1 V c 0 t) (iblk1 V c 2 t) (iblk1 V c 3 t) (iblk1 V c 4 t) (iblk1 V c 5 t) (ix2 p q)
    = sage (V c main_v32) (V c main_v20) (V c main_v22) (V c main_v7) (V c main_v9) (V c main_v33)
        (((cfg1.win 6).blk t).view.emb (ix2 p q))
  rw [out_rows]
  refine (payload_apply _ _ _ _ _ _ p q).trans ?_
  show Sage.layer (mean (iblk1 V c 0 t) (iblk1 V c 1 t)) (iblk1 V c 2 t) (iblk1 V c 3 t) (iblk1 V c 4 t) (iblk1 V c 5 t) (ix2 p q)
    = Sage.layer (mean (V c main_v32) (V c main_v20)) (V c main_v22) (V c main_v7) (V c main_v9) (V c main_v33) (ix2 (row t p) q)
  simp only [Sage.layer_apply, mean_apply, in_sums, in_count, in_feat, in_wl, in_wr, in_bias]

/-- An index of the array is in point t's block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v34).slice (win1_6.rect t)).set ↔ _
  rw [View.set_slice_whole, Rect.mem_set_unit]
  exact Iff.rfl

/-- Every index of the output array is in the block of the point that owns its row. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  let t : Fin cfg1.N := ⟨(i 0).val / 5000, by show _ < grid1.N; rw [N_1]; omega⟩
  obtain ⟨-, -, -, -, -, -, -, -, -, -, -, -, e12, e13⟩ := idx_facts t
  have ht : t.val = (i 0).val / 5000 := rfl
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The output array when the region ends. -/
theorem final : (dat1 V c).arrAt 6 cfg1.N = result V c :=
  (dat1 V c).arrAt_eq_of_cover 6 (result V c) (fun t _ => flushed_eq V c t) (cover)

end Cert.KernelIdeal.LayerOne

end
-- ==== Proof.FoldB.lean ====
/-
  The buffer contents at the program's boundaries, in closed form: the second stretch of host operations and the
  first layer's region.

  The stretch gathers h0's rows at the edges' source nodes and scatters their sums onto the target nodes, and views
  the layer's bias as one row.  The region leaves h1 in its output array and every other buffer as it found it.
-/
import proofs.«143336_j31722628448446_1_alg».proof.Proof.Gen.KernelIdeal.Frame
import Idealize.ShloMosaic.Lib.StableHlo.Run
import Idealize.ShloMosaic.PureOps.Ideal.Laws
import proofs.«143336_j31722628448446_1_alg».proof.Proof.Net
import proofs.«143336_j31722628448446_1_alg».proof.Proof.PreLinear
import proofs.«143336_j31722628448446_1_alg».proof.Proof.FoldA
import proofs.«143336_j31722628448446_1_alg».proof.Proof.LayerOne

set_option maxRecDepth 16384

noncomputable section

namespace Cert.KernelIdeal.Fold

open Cert.KernelIdeal Cert.KernelIdeal.Gen Idealize.ShloMosaic Idealize.ShloMosaic.TcCoe Idealize.ShloMosaic.StableHlo
open Idealize.SL.Sem Cert.Net

variable (m : (ℓ : Loc nD τ sig) → Buf (Elt Ideal) ℓ) (ρ : Dev nD → PrngReg) (c : Dev nD)

/-! ## After the second stretch -/

theorem W3_v32 : W3 m ρ c (Proc.devRef .tc main_v32) = agg (src m c) (dst m c) (h0 m c) := by
  show StableHlo.after hostOps1 (W2 m ρ c) (Proc.devRef .tc main_v32) = _
  after_results
  rw [W2_v3, W2_v22, W2_v1] <;> rfl

theorem W3_v33 : W3 m ρ c (Proc.devRef .tc main_v33) = rowOf (arg m c main_arg5) := by
  show StableHlo.after hostOps1 (W2 m ρ c) (Proc.devRef .tc main_v33) = _
  after_results
  rw [W2_arg5] <;> rfl

theorem W3_v1 : W3 m ρ c (Proc.devRef .tc main_v1) = src m c := by
  show StableHlo.after hostOps1 (W2 m ρ c) (Proc.devRef .tc main_v1) = _
  after_results <;> exact W2_v1 m ρ c

theorem W3_v3 : W3 m ρ c (Proc.devRef .tc main_v3) = dst m c := by
  show StableHlo.after hostOps1 (W2 m ρ c) (Proc.devRef .tc main_v3) = _
  after_results <;> exact W2_v3 m ρ c

theorem W3_v7 : W3 m ρ c (Proc.devRef .tc main_v7) = wT (arg m c main_arg4) := by
  show StableHlo.after hostOps1 (W2 m ρ c) (Proc.devRef .tc main_v7) = _
  after_results <;> exact W2_v7 m ρ c

theorem W3_v9 : W3 m ρ c (Proc.devRef .tc main_v9) = wT (arg m c main_arg6) := by
  show StableHlo.after hostOps1 (W2 m ρ c) (Proc.devRef .tc main_v9) = _
  after_results <;> exact W2_v9 m ρ c

theorem W3_v11 : W3 m ρ c (Proc.devRef .tc main_v11) = wT (arg m c main_arg7) := by
  show StableHlo.after hostOps1 (W2 m ρ c) (Proc.devRef .tc main_v11) = _
  after_results <;> exact W2_v11 m ρ c

theorem W3_v13 : W3 m ρ c (Proc.devRef .tc main_v13) = wT (arg m c main_arg9) := by
  show StableHlo.after hostOps1 (W2 m ρ c) (Proc.devRef .tc main_v13) = _
  after_results <;> exact W2_v13 m ρ c

theorem W3_v15 : W3 m ρ c (Proc.devRef .tc main_v15) = wqT (arg m c main_arg10) := by
  show StableHlo.after hostOps1 (W2 m ρ c) (Proc.devRef .tc main_v15) = _
  after_results <;> exact W2_v15 m ρ c

theorem W3_v20 : W3 m ρ c (Proc.devRef .tc main_v20) = cnt2 m c := by
  show StableHlo.after hostOps1 (W2 m ρ c) (Proc.devRef .tc main_v20) = _
  after_results <;> exact W2_v20 m ρ c

theorem W3_v22 : W3 m ρ c (Proc.devRef .tc main_v22) = h0 m c := by
  show StableHlo.after hostOps1 (W2 m ρ c) (Proc.devRef .tc main_v22) = _
  after_results <;> exact W2_v22 m ρ c

theorem W3_arg8 : W3 m ρ c (Proc.devRef .tc main_arg8) = arg m c main_arg8 := by
  show StableHlo.after hostOps1 (W2 m ρ c) (Proc.devRef .tc main_arg8) = _
  after_results <;> exact W2_arg8 m ρ c

theorem W3_arg11 : W3 m ρ c (Proc.devRef .tc main_arg11) = arg m c main_arg11 := by
  show StableHlo.after hostOps1 (W2 m ρ c) (Proc.devRef .tc main_arg11) = _
  after_results <;> exact W2_arg11 m ρ c

/-! ## After the first layer's region -/

theorem W4_v34 : W4 m ρ c (Proc.devRef .tc main_v34) = h1 m c :=
  (W4_arr m ρ c 6).trans ((LayerOne.final (V3 m ρ) c).trans (by
    show sage (W3 m ρ c (Proc.devRef .tc main_v32)) (W3 m ρ c (Proc.devRef .tc main_v20)) (W3 m ρ c (Proc.devRef .tc main_v22))
      (W3 m ρ c (Proc.devRef .tc main_v7)) (W3 m ρ c (Proc.devRef .tc main_v9)) (W3 m ρ c (Proc.devRef .tc main_v33)) = _
    rw [W3_v32, W3_v20, W3_v22, W3_v7, W3_v9, W3_v33] <;> rfl))

theorem W4_v1 : W4 m ρ c (Proc.devRef .tc main_v1) = src m c :=
  (W4_of_ne m ρ c main_v1 (by decide)).trans (W3_v1 m ρ c)

theorem W4_v3 : W4 m ρ c (Proc.devRef .tc main_v3) = dst m c :=
  (W4_of_ne m ρ c main_v3 (by decide)).trans (W3_v3 m ρ c)

theorem W4_v11 : W4 m ρ c (Proc.devRef .tc main_v11) = wT (arg m c main_arg7) :=
  (W4_of_ne m ρ c main_v11 (by decide)).trans (W3_v11 m ρ c)

theorem W4_v13 : W4 m ρ c (Proc.devRef .tc main_v13) = wT (arg m c main_arg9) :=
  (W4_of_ne m ρ c main_v13 (by decide)).trans (W3_v13 m ρ c)

theorem W4_v15 : W4 m ρ c (Proc.devRef .tc main_v15) = wqT (arg m c main_arg10) :=
  (W4_of_ne m ρ c main_v15 (by decide)).trans (W3_v15 m ρ c)

/-- The count column is one of this region's input windows: an input array ends as the region found it. -/
theorem W4_v20 : W4 m ρ c (Proc.devRef .tc main_v20) = cnt2 m c :=
  ((W4_arr m ρ c 1).trans (((dat1 (V3 m ρ) c).arrAt_in 1 rfl _).trans (A_eq1 (V3 m ρ) c 1))).trans (W3_v20 m ρ c)

theorem W4_arg8 : W4 m ρ c (Proc.devRef .tc main_arg8) = arg m c main_arg8 :=
  (W4_of_ne m ρ c main_arg8 (by decide)).trans (W3_arg8 m ρ c)

theorem W4_arg11 : W4 m ρ c (Proc.devRef .tc main_arg11) = arg m c main_arg11 :=
  (W4_of_ne m ρ c main_arg11 (by decide)).trans (W3_arg11 m ρ c)

end Cert.KernelIdeal.Fold

end
-- ==== Proof.LayerTwo.lean ====
/-
  The second layer's region: what its output array holds when the region ends.

  The region runs over 20 grid points.  Point t loads rows 5000·t … 5000·t + 4999 of the neighbour sums, of the
  neighbour counts (an [·, 1] column) and of the features, and the two whole weights and the one-row bias; it divides
  each row of sums by max(count, 1), multiplies the quotient and the features by their weights, adds the products and
  the bias, clips at zero, and writes the result back as the same rows of the output array.  Row r of the result
  depends on row r of the three row-blocked arrays only, and the 20 row blocks tile the output: the array ends at the
  layer of the arrays the region was entered with.
-/
import proofs.«143336_j31722628448446_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«143336_j31722628448446_1_alg».proof.Proof.Net

set_option maxRecDepth 16384

noncomputable section

namespace Cert.KernelIdeal.LayerTwo

open Cert.KernelIdeal Cert.KernelIdeal.Gen Idealize.ShloMosaic Idealize.ShloMosaic.TcCoe Idealize.ShloMosaic.ValueIdx
open Idealize.SL.Sem
open Cert.RowOps Cert.Net

variable (V : (c : Dev nD) → (b : Ref sig .tc) → Buf (Elt Ideal) ((c : Thread nD τ).loc b))

theorem hz : (![0, 0] : Fin 2 → Nat) = fun _ => 0 := funext fun a => by fin_cases a <;> rfl

theorem plain : IsPlain dot_S5000x128_S128x128_S5000x128_1_0_0_1_n_n := ⟨rfl, rfl, rfl, rfl, rfl, rfl⟩

/-- The body's result at row p, column q of a block is the layer of the loaded blocks there. -/
theorem payload_apply (cnt : FVec Ideal S5000x1 .f32) (a x : FVec Ideal S5000x128 .f32) (wl wr : FVec Ideal S128x128 .bf16)
    (b : FVec Ideal S1x128 .f32) (p : Fin 5000) (q : Fin 128) :
    k2_pay1 (F := Ideal) cnt a x wl wr b (ix2 p q) = sage a cnt x wl wr b (ix2 p q) := by
  unfold k2_pay1
  simp only [shapeCast_self]
  refine (Sage.blockLayer_apply plain _ _ wl wr b broadcasts_S1x128_S5000x128 p q).trans ?_
  show _ = Sage.layer (mean a cnt) x wl wr b (ix2 p q)
  rw [Sage.layer_apply]
  simp only [truncf_apply, divf_apply, spread_apply, maximumf_apply, broadcast_apply, mean_apply]
  rfl

/-- The printed index maps over the grid: the row windows sit at block t, the weights and the bias at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of point t's block is row 5000·t + p of the array. -/
def row (t : Fin cfg2.N) (p : Fin 5000) : Fin 100000 :=
  ⟨t.val * 5000 + p.val, by have h : t.val < 20 := (N_2 ▸ t.isLt); have := p.isLt; omega⟩

variable (c : Dev nD)

theorem in_sums (t : Fin cfg2.N) (p : Fin 5000) (k : Fin 128) :
    iblk2 V c 0 t (ix2 p k) = V c main_v44 (ix2 (row t p) k) := by
  obtain ⟨e0, e1, -⟩ := idx_facts t
  show V c main_v44 (((cfg2.win 0).blk t).view.emb (ix2 p k)) = V c main_v44 (ix2 (row t p) k)
  congr 1
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

theorem in_count (t : Fin cfg2.N) (p : Fin 5000) :
    iblk2 V c 1 t (ix2 p (0 : Fin 1)) = V c main_v20 (ix2 (row t p) (0 : Fin 1)) := by
  obtain ⟨-, -, e2, e3, -⟩ := idx_facts t
  show V c main_v20 (((cfg2.win 1).blk t).view.emb (ix2 p (0 : Fin 1))) = V c main_v20 (ix2 (row t p) (0 : Fin 1))
  congr 1
  funext a; apply Fin.ext
  match a with
  | ⟨0, _⟩ => show win2_1.index t (0 : Fin 2) * 5000 + 1 * p.val = t.val * 5000 + p.val; omega
  | ⟨1, _⟩ => show win2_1.index t (1 : Fin 2) * 1 + 1 * 0 = 0; omega

theorem in_feat (t : Fin cfg2.N) (p : Fin 5000) (k : Fin 128) :
    iblk2 V c 2 t (ix2 p k) = V c main_v34 (ix2 (row t p) k) := by
  obtain ⟨-, -, -, -, e4, e5, -⟩ := idx_facts t
  show V c main_v34 (((cfg2.win 2).blk t).view.emb (ix2 p k)) = V c main_v34 (ix2 (row t p) k)
  congr 1
  funext a; apply Fin.ext
  match a with
  | ⟨0, _⟩ => show win2_2.index t (0 : Fin 2) * 5000 + 1 * p.val = t.val * 5000 + p.val; omega
  | ⟨1, _⟩ => show win2_2.index t (1 : Fin 2) * 128 + 1 * k.val = k.val; omega

theorem in_wl (t : Fin cfg2.N) (k q : Fin 128) :
    iblk2 V c 3 t (ix2 k q) = V c main_v11 (ix2 k q) := by
  obtain ⟨-, -, -, -, -, -, e6, e7, -⟩ := idx_facts t
  show V c main_v11 (((cfg2.win 3).blk t).view.emb (ix2 k q)) = V c main_v11 (ix2 k q)
  congr 1
  funext a; apply Fin.ext
  match a with
  | ⟨0, _⟩ => show win2_3.index t (0 : Fin 2) * 128 + 1 * k.val = k.val; omega
  | ⟨1, _⟩ => show win2_3.index t (1 : Fin 2) * 128 + 1 * q.val = q.val; omega

theorem in_wr (t : Fin cfg2.N) (k q : Fin 128) :
    iblk2 V c 4 t (ix2 k q) = V c main_v13 (ix2 k q) := by
  obtain ⟨-, -, -, -, -, -, -, -, e8, e9, -⟩ := idx_facts t
  show V c main_v13 (((cfg2.win 4).blk t).view.emb (ix2 k q)) = V c main_v13 (ix2 k q)
  congr 1
  funext a; apply Fin.ext
  match a with
  | ⟨0, _⟩ => show win2_4.index t (0 : Fin 2) * 128 + 1 * k.val = k.val; omega
  | ⟨1, _⟩ => show win2_4.index t (1 : Fin 2) * 128 + 1 * q.val = q.val; omega

theorem in_bias (t : Fin cfg2.N) (q : Fin 128) :
    iblk2 V c 5 t (ix2 (0 : Fin 1) q) = V c main_v45 (ix2 (0 : Fin 1) q) := by
  obtain ⟨-, -, -, -, -, -, -, -, -, -, e10, e11, -⟩ := idx_facts t
  show V c main_v45 (((cfg2.win 5).blk t).view.emb (ix2 (0 : Fin 1) q)) = V c main_v45 (ix2 (0 : Fin 1) q)
  congr 1
  funext a; apply Fin.ext
  match a with
  | ⟨0, _⟩ => show win2_5.index t (0 : Fin 2) * 1 + 1 * 0 = 0; omega
  | ⟨1, _⟩ => show win2_5.index t (1 : Fin 2) * 128 + 1 * q.val = q.val; omega

theorem out_rows (t : Fin cfg2.N) (p : Fin 5000) (q : Fin 128) :
    ((cfg2.win 6).blk t).view.emb (ix2 p q) = ix2 (row t p) q := by
  obtain ⟨-, -, -, -, -, -, -, -, -, -, -, -, e12, e13⟩ := idx_facts t
  funext a; apply Fin.ext
  match a with
  | ⟨0, _⟩ => show win2_6.index t (0 : Fin 2) * 5000 + 1 * p.val = t.val * 5000 + p.val; omega
  | ⟨1, _⟩ => show win2_6.index t (1 : Fin 2) * 128 + 1 * q.val = q.val; omega

/-- What the output array holds when the region ends, as a function of the arrays it was entered with. -/
abbrev result : Mat 100000 128 :=
  sage (V c main_v44) (V c main_v20) (V c main_v34) (V c main_v11) (V c main_v13) (V c main_v45)

/-- What point t writes back is block t of `result`. -/
theorem flushed_eq (t : Fin cfg2.N) :
    (dat2 V c).flushed 6 t = ((cfg2.win 6).blk t).view.read (Elt Ideal) (result V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz, View.ld_unit_zero (S := S128x128) hz,
    View.ld_unit_zero (S := S1x128) hz]
  funext j
  obtain ⟨p, q, rfl⟩ : ∃ (p : Fin 5000) (q : Fin 128), j = ix2 p q := ⟨j 0, j 1, eq_ix2 j⟩
  show k2_pay1 (F := Ideal) (iblk2 V c 1 t) (iblk2 V c 0 t) (iblk2 V c 2 t) (iblk2 V c 3 t) (iblk2 V c 4 t) (iblk2 V c 5 t) (ix2 p q)
    = sage (V c main_v44) (V c main_v20) (V c main_v34) (V c main_v11) (V c main_v13) (V c main_v45)
        (((cfg2.win 6).blk t).view.emb (ix2 p q))
  rw [out_rows]
  refine (payload_apply _ _ _ _ _ _ p q).trans ?_
  show Sage.layer (mean (iblk2 V c 0 t) (iblk2 V c 1 t)) (iblk2 V c 2 t) (iblk2 V c 3 t) (iblk2 V c 4 t) (iblk2 V c 5 t) (ix2 p q)
    = Sage.layer (mean (V c main_v44) (V c main_v20)) (V c main_v34) (V c main_v11) (V c main_v13) (V c main_v45) (ix2 (row t p) q)
  simp only [Sage.layer_apply, mean_apply, in_sums, in_count, in_feat, in_wl, in_wr, in_bias]

/-- An index of the array is in point t's block iff each coordinate is in the block's range on its axis. -/
theorem mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v46).slice (win2_6.rect t)).set ↔ _
  rw [View.set_slice_whole, Rect.mem_set_unit]
  exact Iff.rfl

/-- Every index of the output array is in the block of the point that owns its row. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  let t : Fin cfg2.N := ⟨(i 0).val / 5000, by show _ < grid2.N; rw [N_2]; omega⟩
  obtain ⟨-, -, -, -, -, -, -, -, -, -, -, -, e12, e13⟩ := idx_facts t
  have ht : t.val = (i 0).val / 5000 := rfl
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The output array when the region ends. -/
theorem final : (dat2 V c).arrAt 6 cfg2.N = result V c :=
  (dat2 V c).arrAt_eq_of_cover 6 (result V c) (fun t _ => flushed_eq V c t) (cover)

end Cert.KernelIdeal.LayerTwo

end
-- ==== Proof.LibRowLogSoftmax.lean ====
/-
  A row-wise log-softmax of an [a, b] vector, read at one index on the extended reals.

  A kernel body that normalises the rows of an [a, b] vector L to log-probabilities takes the maximum m of each row
  (a reduction along the second axis, viewed as an [a, 1] column and repeated along the row), exponentiates L - m,
  sums each row, takes the logarithm of the sum, adds it to m, repeats that column along the row and subtracts it
  from L.  At (p, q) this is L(p, q) - (m_p + log Σ_k exp(L(p, k) - m_p)), where m_p is the fold of `max` over row p
  from the value of the starting word.  Every step only moves coordinates or acts entry by entry, so no entry has to
  be finite.
-/
import Idealize.ShloMosaic.PureOps.Ideal.Laws
import Idealize.ShloMosaic.Lib.ValueIdx
import Idealize.ShloMosaic.Lib.Pipeline.Value
import proofs.«143336_j31722628448446_1_alg».proof.Proof.LibRowOps

noncomputable section

namespace Cert.RowLogSoftmax

open Idealize.ShloMosaic Idealize.ShloMosaic.ValueIdx Cert.RowOps

variable {a b : Nat}

/-- The maximum of row p of L, folded from the value of the word the reduction starts from. -/
def rowMaxFrom (acc : BitVec (FTy.f32).bits) (L : FVec Ideal ⟨2, ![a, b]⟩ .f32) (p : Fin a) : EReal :=
  (Finset.univ : Finset (Fin b)).fold max (Ideal.ofBits .f32 acc) (fun k => L (ix2 p k))

theorem exp_apply {s : Shape} {φ : FTy} (x : FVec Ideal s φ) (i : s.Idx) : exp x i = Ideal.exp (x i) := rfl

theorem log_apply {s : Shape} {φ : FTy} (x : FVec Ideal s φ) (i : s.Idx) : log x i = Ideal.log (x i) := rfl

/-- The row maximum as an [a, 1] column repeated along the row reads, at (p, k), the maximum of row p. -/
theorem maxColumn_apply (L : FVec Ideal ⟨2, ![a, b]⟩ .f32) (accM : BitVec (FTy.f32).bits)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφ : FKind.Formats .f32) (hM : accM = FKind.maximumf.neutral .f32 hφ) (p : Fin a) (k : Fin b) :
    broadcastTo ⟨2, ![a, b]⟩ (shapeCast ⟨2, ![a, 1]⟩ (multiReduction .maximumf [1] ⟨1, ![a]⟩ L accM hr hφ hM) hc) hb (ix2 p k)
      = rowMaxFrom accM L p := by
  rw [spread_apply, column_apply, rowMax_apply]
  rfl

/-- The log-softmax in the kernel's spelling at (p, q). -/
theorem kernel_apply (L : FVec Ideal ⟨2, ![a, b]⟩ .f32) (accM accS : BitVec (FTy.f32).bits)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφ : FKind.Formats .f32) (hM : accM = FKind.maximumf.neutral .f32 hφ) (hS : accS = FKind.add.neutral .f32 hφ)
    (p : Fin a) (q : Fin b) :
    subf L (broadcastTo ⟨2, ![a, b]⟩
        (addf (shapeCast ⟨2, ![a, 1]⟩ (multiReduction .maximumf [1] ⟨1, ![a]⟩ L accM hr hφ hM) hc)
          (log (shapeCast ⟨2, ![a, 1]⟩ (multiReduction .add [1] ⟨1, ![a]⟩
            (exp (subf L (broadcastTo ⟨2, ![a, b]⟩
              (shapeCast ⟨2, ![a, 1]⟩ (multiReduction .maximumf [1] ⟨1, ![a]⟩ L accM hr hφ hM) hc) hb)))
            accS hr hφ hS) hc))) hb) (ix2 p q)
      = L (ix2 p q) - (rowMaxFrom accM L p + Ideal.log (∑ k : Fin b, Ideal.exp (L (ix2 p k) - rowMaxFrom accM L p))) := by
  rw [subf_apply, spread_apply, addf_apply, column_apply, rowMax_apply, log_apply, column_apply, rowSum_apply]
  refine congrArg (fun s => L (ix2 p q) - (rowMaxFrom accM L p + Ideal.log s)) (Finset.sum_congr rfl fun k _ => ?_)
  rw [exp_apply, subf_apply, maxColumn_apply]

end Cert.RowLogSoftmax

end
-- ==== Proof.Head.lean ====
/-
  The last region: the post-linear layer and the row-wise log-softmax.

  The region runs over 20 grid points.  Point t loads rows 5000·t … 5000·t + 4999 of the features, the whole
  [128, 40] weight and the one-row bias, computes the logits rows · weight + bias, and from each row of 40 logits its
  log-softmax x - (m + log Σ exp(x - m)), m the row's maximum; it writes the result back as the same rows of the
  output array.  Row r of the result depends on row r of the features only, and the 20 row blocks tile the output.
-/
import proofs.«143336_j31722628448446_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«143336_j31722628448446_1_alg».proof.Proof.Net
import proofs.«143336_j31722628448446_1_alg».proof.Proof.LibRowLogSoftmax

set_option maxRecDepth 16384

noncomputable section

namespace Cert.KernelIdeal.Head

open Cert.KernelIdeal Cert.KernelIdeal.Gen Idealize.ShloMosaic Idealize.ShloMosaic.TcCoe Idealize.ShloMosaic.ValueIdx
open Idealize.SL.Sem
open Cert.RowOps Cert.Net

variable (V : (c : Dev nD) → (b : Ref sig .tc) → Buf (Elt Ideal) ((c : Thread nD τ).loc b))

theorem hz : (![0, 0] : Fin 2 → Nat) = fun _ => 0 := funext fun a => by fin_cases a <;> rfl

theorem plain : IsPlain dot_S5000x128_S128x40_S5000x40_1_0_0_1_n_n := ⟨rfl, rfl, rfl, rfl, rfl, rfl⟩

/-- The body's logits are rows · weight + bias. -/
theorem logits_eq (x : FVec Ideal S5000x128 .f32) (w : FVec Ideal S128x40 .bf16) (b : FVec Ideal S1x40 .f32) :
    addf (matmul dot_S5000x128_S128x40_S5000x40_1_0_0_1_n_n none (truncf .bf16 x bitsLt_bf16_f32) w
        (constant S5000x40 .f32 0x00000000#32)) (broadcastTo S5000x40 b broadcasts_S1x40_S5000x40) = affine x w b := by
  funext i
  obtain ⟨p, q, rfl⟩ : ∃ (p : Fin 5000) (q : Fin 40), i = ix2 p q := ⟨i 0, i 1, eq_ix2 i⟩
  rw [addf_apply, broadcastTo_1b_ab_apply, affine_apply]
  exact congrArg (· + b (ix2 (0 : Fin 1) q)) (matmul_zero_apply plain none _ w p q)

/-- The body's result at row p, column q of a block: the log-softmax of the block's logits there. -/
theorem payload_apply (x : FVec Ideal S5000x128 .f32) (w : FVec Ideal S128x40 .bf16) (b : FVec Ideal S1x40 .f32)
    (p : Fin 5000) (q : Fin 40) :
    k3_pay1 (F := Ideal) x w b (ix2 p q) = logSoftmax (affine x w b) (ix2 p q) := by
  unfold k3_pay1
  simp only [shapeCast_self]
  rw [logits_eq]
  exact RowLogSoftmax.kernel_apply (affine x w b) _ _ reduces_S5000x40_S5000 shapeCasts_S5000_S5000x1
    broadcasts_S5000x1_S5000x40 (.inl rfl) rfl rfl p q

/-- The printed index maps over the grid: the row windows sit at block t, the weight and the bias at block 0. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row p of point t's block is row 5000·t + p of the array. -/
def row (t : Fin cfg3.N) (p : Fin 5000) : Fin 100000 :=
  ⟨t.val * 5000 + p.val, by have h : t.val < 20 := (N_3 ▸ t.isLt); have := p.isLt; omega⟩

variable (c : Dev nD)

theorem in_feat (t : Fin cfg3.N) (p : Fin 5000) (k : Fin 128) :
    iblk3 V c 0 t (ix2 p k) = V c main_v46 (ix2 (row t p) k) := by
  obtain ⟨e0, e1, -⟩ := idx_facts t
  show V c main_v46 (((cfg3.win 0).blk t).view.emb (ix2 p k)) = V c main_v46 (ix2 (row t p) k)
  congr 1
  funext a; apply Fin.ext
  match a with
  | ⟨0, _⟩ => show win3_0.index t (0 : Fin 2) * 5000 + 1 * p.val = t.val * 5000 + p.val; omega
  | ⟨1, _⟩ => show win3_0.index t (1 : Fin 2) * 128 + 1 * k.val = k.val; omega

theorem in_weight (t : Fin cfg3.N) (k : Fin 128) (q : Fin 40) :
    iblk3 V c 1 t (ix2 k q) = V c main_v15 (ix2 k q) := by
  obtain ⟨-, -, e2, e3, -⟩ := idx_facts t
  show V c main_v15 (((cfg3.win 1).blk t).view.emb (ix2 k q)) = V c main_v15 (ix2 k q)
  congr 1
  funext a; apply Fin.ext
  match a with
  | ⟨0, _⟩ => show win3_1.index t (0 : Fin 2) * 128 + 1 * k.val = k.val; omega
  | ⟨1, _⟩ => show win3_1.index t (1 : Fin 2) * 40 + 1 * q.val = q.val; omega

theorem in_bias (t : Fin cfg3.N) (q : Fin 40) :
    iblk3 V c 2 t (ix2 (0 : Fin 1) q) = V c main_v47 (ix2 (0 : Fin 1) q) := by
  obtain ⟨-, -, -, -, e4, e5, -⟩ := idx_facts t
  show V c main_v47 (((cfg3.win 2).blk t).view.emb (ix2 (0 : Fin 1) q)) = V c main_v47 (ix2 (0 : Fin 1) q)
  congr 1
  funext a; apply Fin.ext
  match a with
  | ⟨0, _⟩ => show win3_2.index t (0 : Fin 2) * 1 + 1 * 0 = 0; omega
  | ⟨1, _⟩ => show win3_2.index t (1 : Fin 2) * 40 + 1 * q.val = q.val; omega

theorem out_rows (t : Fin cfg3.N) (p : Fin 5000) (q : Fin 40) :
    ((cfg3.win 3).blk t).view.emb (ix2 p q) = ix2 (row t p) q := by
  obtain ⟨-, -, -, -, -, -, e6, e7⟩ := idx_facts t
  funext a; apply Fin.ext
  match a with
  | ⟨0, _⟩ => show win3_3.index t (0 : Fin 2) * 5000 + 1 * p.val = t.val * 5000 + p.val; omega
  | ⟨1, _⟩ => show win3_3.index t (1 : Fin 2) * 40 + 1 * q.val = q.val; omega

/-- Row p of a block's logits is row 5000·t + p of the whole arrays' logits. -/
theorem logits_row (t : Fin cfg3.N) (p : Fin 5000) (k : Fin 40) :
    affine (iblk3 V c 0 t) (iblk3 V c 1 t) (iblk3 V c 2 t) (ix2 p k)
      = affine (V c main_v46) (V c main_v15) (V c main_v47) (ix2 (row t p) k) := by
  rw [affine_apply, affine_apply, in_bias]
  exact congrArg (· + _) (Finset.sum_congr rfl fun j _ => by rw [in_feat, in_weight])

/-- What the output array holds when the region ends, as a function of the arrays it was entered with. -/
abbrev result : Mat 100000 40 := logSoftmax (affine (V c main_v46) (V c main_v15) (V c main_v47))

/-- What point t writes back is block t of `result`. -/
theorem flushed_eq (t : Fin cfg3.N) :
    (dat3 V c).flushed 3 t = ((cfg3.win 3).blk t).view.read (Elt Ideal) (result V c) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x40) hz, View.ld_unit_zero (S := S1x40) hz]
  funext j
  obtain ⟨p, q, rfl⟩ : ∃ (p : Fin 5000) (q : Fin 40), j = ix2 p q := ⟨j 0, j 1, eq_ix2 j⟩
  show k3_pay1 (F := Ideal) (iblk3 V c 0 t) (iblk3 V c 1 t) (iblk3 V c 2 t) (ix2 p q)
    = logSoftmax (affine (V c main_v46) (V c main_v15) (V c main_v47)) (((cfg3.win 3).blk t).view.emb (ix2 p q))
  rw [out_rows]
  refine (payload_apply _ _ _ p q).trans ?_
  simp only [logSoftmax_apply, rowMax, rowLse, logits_row]

/-- An index of the array is in point t's block iff each coordinate is in the block's range on its axis. -/
theorem mem_blk (t : Fin cfg3.N) (i : S100000x40.Idx) :
    i ∈ ((cfg3.win 3).blk t).view.set ↔ ∀ a : Fin 2, win3_3.index t a * S5000x40.size a ≤ (i a).val ∧ (i a).val < win3_3.index t a * S5000x40.size a + S5000x40.size a := by
  show i ∈ ((View.whole main_v48).slice (win3_3.rect t)).set ↔ _
  rw [View.set_slice_whole, Rect.mem_set_unit]
  exact Iff.rfl

/-- Every index of the output array is in the block of the point that owns its row. -/
theorem cover (i : S100000x40.Idx) : ∃ t : Fin cfg3.N, (cfg3.win 3).flush t = true ∧ i ∈ ((cfg3.win 3).blk t).view.set := by
  have hi0 : (i 0).val < 100000 := (i 0).isLt
  have hi1 : (i 1).val < 40 := (i 1).isLt
  let t : Fin cfg3.N := ⟨(i 0).val / 5000, by show _ < grid3.N; rw [N_3]; omega⟩
  obtain ⟨-, -, -, -, -, -, e6, e7⟩ := idx_facts t
  have ht : t.val = (i 0).val / 5000 := rfl
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 40 ≤ (i 1).val ∧ (i 1).val < win3_3.index t (1 : Fin 2) * 40 + 40; omega

/-- The output array when the region ends. -/
theorem final : (dat3 V c).arrAt 3 cfg3.N = result V c :=
  (dat3 V c).arrAt_eq_of_cover 3 (result V c) (fun t _ => flushed_eq V c t) (cover)

end Cert.KernelIdeal.Head

end
-- ==== Proof.WholeRun.lean ====
/-
  The whole program's run, with what every buffer holds at the end.

  The program alternates four stretches of host operations with four pipelined regions.  Folding the segments over
  the launch memory gives the buffer contents at each boundary; the last boundary's contents are what every weakly
  fair execution ends with, at every buffer the program does not scope.  The frame claim reads only the argument
  buffers back from that final state; here the whole final state is kept, so that the result buffer can be read too.
-/
import proofs.«143336_j31722628448446_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, and
    ends with every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The same run, read at one unscoped reference of the TensorCore. -/
theorem run_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W8 m ρ c (Proc.devRef .tc b)) :=
  (θ_run defs _ _).mono (fun r h c => h c _ (mem_uc b hb)) (run m ρ)

end Cert.KernelIdeal.WholeRun

end
-- ==== Proof.FoldC.lean ====
/-
  The buffer contents at the program's boundaries, in closed form: the third stretch, the second layer's region, the
  last stretch and the last region; and the program's run with its result named.

  The third stretch aggregates h1 as the second did h0; the second layer's region leaves h2; the last stretch views
  the last bias as one row; the last region leaves the row-wise log-softmax of h2's logits in the result buffer.
-/
import proofs.«143336_j31722628448446_1_alg».proof.Proof.Gen.KernelIdeal.Frame
import Idealize.ShloMosaic.Lib.StableHlo.Run
import Idealize.ShloMosaic.PureOps.Ideal.Laws
import proofs.«143336_j31722628448446_1_alg».proof.Proof.Net
import proofs.«143336_j31722628448446_1_alg».proof.Proof.PreLinear
import proofs.«143336_j31722628448446_1_alg».proof.Proof.FoldA
import proofs.«143336_j31722628448446_1_alg».proof.Proof.LayerOne
import proofs.«143336_j31722628448446_1_alg».proof.Proof.FoldB
import proofs.«143336_j31722628448446_1_alg».proof.Proof.LayerTwo
import proofs.«143336_j31722628448446_1_alg».proof.Proof.Head
import proofs.«143336_j31722628448446_1_alg».proof.Proof.WholeRun

set_option maxRecDepth 16384

noncomputable section

namespace Cert.KernelIdeal.Fold

open Cert.KernelIdeal Cert.KernelIdeal.Gen Idealize.ShloMosaic Idealize.ShloMosaic.TcCoe Idealize.ShloMosaic.StableHlo
open Idealize.SL.Sem Cert.Net

variable (m : (ℓ : Loc nD τ sig) → Buf (Elt Ideal) ℓ) (ρ : Dev nD → PrngReg) (c : Dev nD)

/-! ## After the third stretch -/

theorem W5_v44 : W5 m ρ c (Proc.devRef .tc main_v44) = agg (src m c) (dst m c) (h1 m c) := by
  show StableHlo.after hostOps2 (W4 m ρ c) (Proc.devRef .tc main_v44) = _
  after_results
  rw [W4_v3, W4_v34, W4_v1] <;> rfl

theorem W5_v45 : W5 m ρ c (Proc.devRef .tc main_v45) = rowOf (arg m c main_arg8) := by
  show StableHlo.after hostOps2 (W4 m ρ c) (Proc.devRef .tc main_v45) = _
  after_results
  rw [W4_arg8] <;> rfl

theorem W5_v11 : W5 m ρ c (Proc.devRef .tc main_v11) = wT (arg m c main_arg7) := by
  show StableHlo.after hostOps2 (W4 m ρ c) (Proc.devRef .tc main_v11) = _
  after_results <;> exact W4_v11 m ρ c

theorem W5_v13 : W5 m ρ c (Proc.devRef .tc main_v13) = wT (arg m c main_arg9) := by
  show StableHlo.after hostOps2 (W4 m ρ c) (Proc.devRef .tc main_v13) = _
  after_results <;> exact W4_v13 m ρ c

theorem W5_v15 : W5 m ρ c (Proc.devRef .tc main_v15) = wqT (arg m c main_arg10) := by
  show StableHlo.after hostOps2 (W4 m ρ c) (Proc.devRef .tc main_v15) = _
  after_results <;> exact W4_v15 m ρ c

theorem W5_v20 : W5 m ρ c (Proc.devRef .tc main_v20) = cnt2 m c := by
  show StableHlo.after hostOps2 (W4 m ρ c) (Proc.devRef .tc main_v20) = _
  after_results <;> exact W4_v20 m ρ c

theorem W5_v34 : W5 m ρ c (Proc.devRef .tc main_v34) = h1 m c := by
  show StableHlo.after hostOps2 (W4 m ρ c) (Proc.devRef .tc main_v34) = _
  after_results <;> exact W4_v34 m ρ c

theorem W5_arg11 : W5 m ρ c (Proc.devRef .tc main_arg11) = arg m c main_arg11 := by
  show StableHlo.after hostOps2 (W4 m ρ c) (Proc.devRef .tc main_arg11) = _
  after_results <;> exact W4_arg11 m ρ c

/-! ## After the second layer's region -/

theorem W6_v46 : W6 m ρ c (Proc.devRef .tc main_v46) = h2 m c :=
  (W6_arr m ρ c 6).trans ((LayerTwo.final (V5 m ρ) c).trans (by
    show sage (W5 m ρ c (Proc.devRef .tc main_v44)) (W5 m ρ c (Proc.devRef .tc main_v20)) (W5 m ρ c (Proc.devRef .tc main_v34))
      (W5 m ρ c (Proc.devRef .tc main_v11)) (W5 m ρ c (Proc.devRef .tc main_v13)) (W5 m ρ c (Proc.devRef .tc main_v45)) = _
    rw [W5_v44, W5_v20, W5_v34, W5_v11, W5_v13, W5_v45] <;> rfl))

theorem W6_v15 : W6 m ρ c (Proc.devRef .tc main_v15) = wqT (arg m c main_arg10) :=
  (W6_of_ne m ρ c main_v15 (by decide)).trans (W5_v15 m ρ c)

theorem W6_arg11 : W6 m ρ c (Proc.devRef .tc main_arg11) = arg m c main_arg11 :=
  (W6_of_ne m ρ c main_arg11 (by decide)).trans (W5_arg11 m ρ c)

/-! ## After the last stretch -/

theorem W7_v47 : W7 m ρ c (Proc.devRef .tc main_v47) = rowOfQ (arg m c main_arg11) := by
  show StableHlo.after hostOps3 (W6 m ρ c) (Proc.devRef .tc main_v47) = _
  after_results
  rw [W6_arg11] <;> rfl

theorem W7_v46 : W7 m ρ c (Proc.devRef .tc main_v46) = h2 m c := by
  show StableHlo.after hostOps3 (W6 m ρ c) (Proc.devRef .tc main_v46) = _
  after_results <;> exact W6_v46 m ρ c

theorem W7_v15 : W7 m ρ c (Proc.devRef .tc main_v15) = wqT (arg m c main_arg10) := by
  show StableHlo.after hostOps3 (W6 m ρ c) (Proc.devRef .tc main_v15) = _
  after_results <;> exact W6_v15 m ρ c

/-! ## After the last region -/

theorem W8_v48 : W8 m ρ c (Proc.devRef .tc main_v48) = out m c :=
  (W8_arr m ρ c 3).trans ((Head.final (V7 m ρ) c).trans (by
    show logSoftmax (affine (W7 m ρ c (Proc.devRef .tc main_v46)) (W7 m ρ c (Proc.devRef .tc main_v15)) (W7 m ρ c (Proc.devRef .tc main_v47))) = _
    rw [W7_v46, W7_v15, W7_v47] <;> rfl))

/-! ## The run -/

/-- From any memory with zero counters every weakly fair execution of the program terminates, nothing faulting, with
    the result buffer at `out` of the launch contents and every argument array as launched. -/
theorem run : θ_run defs (onTc (τ := τ) (main (F := Ideal))) ⟨m, fun _ => 0, ρ⟩ (fun r => ∀ c : Dev nD,
      r.2.mem ((c.tc : Thread nD τ).loc main_v48) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v48 (by decide))).trans (W8_v48 m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c)⟩)
    (WholeRun.run m ρ)

end Cert.KernelIdeal.Fold

end
-- ==== Proof.LibHostRowOps.lean ====
/-
  Host operations on two-dimensional arrays read at one index, on the extended reals.

  A jnp reference that applies dense layers and a row-wise normalisation is a composition of a few host operations on
  [a, b] arrays. Each lemma below reads one of them at the index (r, c), both coordinates explicit: a plain
  `dot_general` is the sum over the shared axis; a `reduce` along the second axis with a maximum body is the fold of
  `max` over that row from the initial value, and the float sum along it is the initial value plus the row's sum; a
  `broadcast_in_dim` of a vector to a [1, b] row or an [a, 1] column, and of such a row or column to an [a, b]
  array, only moves coordinates.
-/
import Idealize.ShloMosaic.PureOps.Ideal.Laws
import Idealize.ShloMosaic.Lib.ValueIdx
import Idealize.ShloMosaic.Lib.Pipeline.Value
import Idealize.ShloMosaic.Lib.IdealHost
import proofs.«143336_j31722628448446_1_alg».proof.Proof.LibRowOps

noncomputable section

namespace Cert.HostRowOps

open Idealize.ShloMosaic Idealize.ShloMosaic.ValueIdx

/-! ## A plain host product -/

section Plain

variable {M K N : Nat} {d : DotDims ⟨2, ![M, K]⟩ ⟨2, ![K, N]⟩ ⟨2, ![M, N]⟩}

/-- The host's plain `[M, K] × [K, N]` product at (r, c): the sum over the shared axis of the products. -/
theorem dot_apply (hd : RowOps.IsPlain d) {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) := by
  simp only [Host.dotGeneral]
  rw [Ideal.dotGeneral_apply,
    ← Equiv.sum_comp (contrEquiv1 d K (RowOps.contr_rank hd) (RowOps.contr_size hd)).symm]
  refine Finset.sum_congr rfl fun k _ => ?_
  have hk := contrEquiv1_symm_val d K (RowOps.contr_rank hd) (RowOps.contr_size hd) k
  have el : d.lhsIdx (ix2 r c) ((contrEquiv1 d K (RowOps.contr_rank hd) (RowOps.contr_size hd)).symm k) = ix2 r k :=
    funext fun a => Fin.ext (by
      match a with
      | ⟨0, _⟩ => exact RowOps.lhsIdx_row hd _ _
      | ⟨1, _⟩ => exact (d.lhsIdx_val_of_single hd.lc _ _).trans hk)
  have er : d.rhsIdx (ix2 r c) ((contrEquiv1 d K (RowOps.contr_rank hd) (RowOps.contr_size hd)).symm k) = ix2 k c :=
    funext fun a => Fin.ext (by
      match a with
      | ⟨0, _⟩ => exact (d.rhsIdx_val_of_single hd.rc _ _).trans hk
      | ⟨1, _⟩ => exact RowOps.rhsIdx_col hd _ _)
  rw [el, er]

end Plain

/-! ## Host reductions along the second axis -/

section Rows

variable {a b : Nat} {φ : FTy} {u : Shape}

/-- The host's `reduce` with a maximum body along the second axis, at row `r`: the fold of `max` over that row from the
    initial value's element. -/
theorem rowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (RowOps.lift_row h r k))

/-- The host's float sum along the second axis, at row `r`: the initial value's element plus the sum of that row. -/
theorem rowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  rw [hostReduceAdd_apply, Ideal.hostReduceAdd_single h' h]
  exact congrArg (init (Shape.Idx.first hu) + ·) (Finset.sum_congr rfl fun k _ => congrArg x (RowOps.lift_row h r k))

end Rows

/-! ## Moving coordinates -/

section Layout

variable {α : Type} {a b : Nat}

/-- A length-`b` vector laid along the second axis of a `[1, b]` row reads, at (u, j), the vector at j. -/
theorem vecToRow_apply (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) :=
  broadcastInDim_apply _ h x _ _ (fun c => by
    match c with
    | ⟨0, _⟩ =>
      show j.val = if b = 1 then 0 else j.val
      split
      · next h1 => have := j.isLt; omega
      · rfl)

/-- A `[1, b]` row repeated along a first axis reads, at (i, j), the row at (0, j). -/
theorem rowToMat_apply (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) :=
  broadcastInDim_apply _ h x _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- A length-`a` vector laid along the first axis of an `[a, 1]` column reads, at (i, u), the vector at i. -/
theorem vecToCol_apply (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · next h1 => have := i.isLt; omega
      · rfl)

/-- An `[a, 1]` column repeated along a second axis reads, at (i, j), the column at (i, 0). -/
theorem colToMat_apply (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

end Layout

end Cert.HostRowOps

end
-- ==== Proof.RefSpelling.lean ====
/-
  The reference program's stages, spelled as its host operations compose them.

  Each definition is the term the reference's operations build for one stage from the stage's inputs: the edge list's
  two rows; the pre-linear layer X · W_preᵀ + b; a layer relu((sums / max(count, 1)) · Wlᵀ + b + h · Wrᵀ), the sums
  and counts gathered and scattered along the edges; and the row-wise log-softmax of h · W_postᵀ + b with the row
  maximum subtracted first.  Nothing is simplified: the other modules read these terms at an index.
-/
import proofs.«143336_j31722628448446_1_alg».proof.Proof.Gen.ReferenceIdeal
import Idealize.ShloMosaic.PureOps.Ideal.Laws

noncomputable section

namespace Cert.ReferenceIdeal.Spelled

open Cert.ReferenceIdeal Cert.ReferenceIdeal.Gen Idealize.ShloMosaic Idealize.ShloMosaic.TcCoe

/-- The edges' source nodes: row 0 of the edge list. -/
def src (e : IVec S2x1600000 32) : IVec S1600000 32 :=
  shapeCast S1600000 (extractStridedSlice S1x1600000 ![0, 0] e slices_S2x1600000_S1x1600000_0_0) shapeCasts_S1x1600000_S1600000

/-- The edges' target nodes: row 1 of the edge list. -/
def dst (e : IVec S2x1600000 32) : IVec S1600000 32 :=
  shapeCast S1600000 (extractStridedSlice S1x1600000 ![1, 0] e slices_S2x1600000_S1x1600000_1_0) shapeCasts_S1x1600000_S1600000

/-- The pre-linear layer. -/
def pre (x : FVec Ideal S100000x128 .f32) (W : FVec Ideal S128x128 .f32) (b : FVec Ideal S128 .f32) : FVec Ideal S100000x128 .f32 :=
  addf (Host.dotGeneral dot_S100000x128_S128x128_S100000x128_1_0_0_1_n_n none x (transpose S128x128 [1, 0] W transposes_S128x128_S128x128_1_0))
    (broadcastInDim S100000x128 ![0, 1] bcast_S1x128_S100000x128_0_1 (broadcastInDim S1x128 ![1] bcast_S128_S1x128_1 b))

/-- The neighbour sums of h: each edge's source row gathered (a negative index wrapped by the node count), scattered
    onto zeros at the edge's target node. -/
def agg (s d : IVec S1600000 32) (h : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The number of edges into each node: ones scattered onto zeros at the target nodes. -/
def cnt (d : IVec S1600000 32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 d)
    (broadcastInDim S1600000 ![] bcast_S_S1600000 (constant (F := Ideal) S_ .f32 0x3F800000#32))

/-- The neighbour means: the sums divided by max(count, 1), the divisor repeated along each row. -/
def meanOf (s d : IVec S1600000 32) (h : FVec Ideal S100000x128 .f32) : FVec Ideal S100000x128 .f32 :=
  Host.divf (agg s d h)
    (broadcastInDim S100000x128 ![0, 1] bcast_S100000x1_S100000x128_0_1 (broadcastInDim S100000x1 ![0] bcast_S100000_S100000x1_0
      (maximumf (cnt d) (broadcastInDim S100000 ![] bcast_S_S100000 (constant (F := Ideal) S_ .f32 0x3F800000#32)))))

/-- One layer. -/
def layer (h : FVec Ideal S100000x128 .f32) (s d : IVec S1600000 32) (Wl : FVec Ideal S128x128 .f32) (bl : FVec Ideal S128 .f32)
    (Wr : FVec Ideal S128x128 .f32) : FVec Ideal S100000x128 .f32 :=
  maximumf
    (addf
      (addf (Host.dotGeneral dot_S100000x128_S128x128_S100000x128_1_0_0_1_n_n none (meanOf s d h)
          (transpose S128x128 [1, 0] Wl transposes_S128x128_S128x128_1_0))
        (broadcastInDim S100000x128 ![0, 1] bcast_S1x128_S100000x128_0_1 (broadcastInDim S1x128 ![1] bcast_S128_S1x128_1 bl)))
      (Host.dotGeneral dot_S100000x128_S128x128_S100000x128_1_0_0_1_n_n none h (transpose S128x128 [1, 0] Wr transposes_S128x128_S128x128_1_0)))
    (broadcastInDim S100000x128 ![] bcast_S_S100000x128 (constant (F := Ideal) S_ .f32 0x00000000#32))

/-- The logits. -/
def logits (h : FVec Ideal S100000x128 .f32) (W : FVec Ideal S40x128 .f32) (b : FVec Ideal S40 .f32) : FVec Ideal S100000x40 .f32 :=
  addf (Host.dotGeneral dot_S100000x128_S128x40_S100000x40_1_0_0_1_n_n none h (transpose S128x40 [1, 0] W transposes_S40x128_S128x40_1_0))
    (broadcastInDim S100000x40 ![0, 1] bcast_S1x40_S100000x40_0_1 (broadcastInDim S1x40 ![1] bcast_S40_S1x40_1 b))

/-- The logits with each row's maximum subtracted. -/
def shifted (L : FVec Ideal S100000x40 .f32) : FVec Ideal S100000x40 .f32 :=
  subf L (broadcastInDim S100000x40 ![0, 1] bcast_S100000x1_S100000x40_0_1 (broadcastInDim S100000x1 ![0] bcast_S100000_S100000x1_0
    (maximumf (broadcastInDim S100000 ![] bcast_S_S100000 (constant (F := Ideal) S_ .f32 0xFF800000#32))
      (Host.reduce FloatOps.maximumf L (constant (F := Ideal) S_ .f32 0xFF800000#32) reducesTo_S100000x40_S100000_d1 h_S_))))

/-- The row-wise log-softmax: the shifted logits less the logarithm of the row sums of their exponentials. -/
def logSoftmaxOf (L : FVec Ideal S100000x40 .f32) : FVec Ideal S100000x40 .f32 :=
  subf (shifted L) (broadcastInDim S100000x40 ![0, 1] bcast_S100000x1_S100000x40_0_1
    (Host.log (broadcastInDim S100000x1 ![0] bcast_S100000_S100000x1_0
      (Host.reduceAdd (Host.exp (shifted L)) (constant (F := Ideal) S_ .f32 0x00000000#32) reducesTo_S100000x40_S100000_d1 h_S_))))

/-- The last stage. -/
def post (h : FVec Ideal S100000x128 .f32) (W : FVec Ideal S40x128 .f32) (b : FVec Ideal S40 .f32) : FVec Ideal S100000x40 .f32 :=
  logSoftmaxOf (logits h W b)

end Cert.ReferenceIdeal.Spelled

end
-- ==== Proof.Bridge.lean ====
/-
  The two programs compute one function.

  Stage by stage the reference's term and the kernel's closed form are equal as whole arrays.  The pre-linear layer:
  a host product with the transposed weight plus the bias on every row is X · Wᵀ + b, and a change of format is the
  identity on extended reals.  A layer: both divide the same neighbour sums by max(count, 1); the reference adds the
  bias between the two products and the kernel after them, and addition of extended reals is commutative and
  associative.  The last stage: both take the row-wise log-softmax of the same logits, the reference subtracting the
  row maximum first and the kernel joining it with the logarithm first; these agree when the row maximum is a real
  number, which it is when the logits are, and the logits are real because every stage keeps entries real: sums,
  products, quotients by a number that is at least 1, maxima, gathered entries and finite sums of scattered entries.
-/
import proofs.«143336_j31722628448446_1_alg».proof.Proof.Net
import proofs.«143336_j31722628448446_1_alg».proof.Proof.LibHostRowOps
import proofs.«143336_j31722628448446_1_alg».proof.Proof.RefSpelling
import proofs.«143336_j31722628448446_1_alg».proof.Proof.FoldA
import Idealize.ShloMosaic.Lib.IdealHost
import Idealize.ShloMosaic.Lib.ValueLayout

set_option maxRecDepth 16384

noncomputable section

namespace Cert.Bridge

open Idealize.ShloMosaic Idealize.ShloMosaic.ValueIdx Cert.Net Cert.RowOps
open Cert.KernelIdeal.Fold (wT wqT rowOf rowOfQ)
open Cert.ReferenceIdeal (Spelled.src Spelled.dst Spelled.pre Spelled.agg Spelled.cnt Spelled.meanOf Spelled.layer Spelled.logits
  Spelled.shifted Spelled.logSoftmaxOf Spelled.post)

abbrev S100000x128 : Shape := ⟨2, ![100000, 128]⟩
abbrev S100000x40 : Shape := ⟨2, ![100000, 40]⟩
abbrev S128x128 : Shape := ⟨2, ![128, 128]⟩
abbrev S40x128 : Shape := ⟨2, ![40, 128]⟩
abbrev S128 : Shape := ⟨1, ![128]⟩
abbrev S40 : Shape := ⟨1, ![40]⟩
abbrev S1600000 : Shape := ⟨1, ![1600000]⟩

theorem plain128 : IsPlain ReferenceIdeal.dot_S100000x128_S128x128_S100000x128_1_0_0_1_n_n := ⟨rfl, rfl, rfl, rfl, rfl, rfl⟩
theorem plain40 : IsPlain ReferenceIdeal.dot_S100000x128_S128x40_S100000x40_1_0_0_1_n_n := ⟨rfl, rfl, rfl, rfl, rfl, rfl⟩

/-! ## The kernel's closed forms as functions of values -/

/-- The count column from the target nodes. -/
def cntCol (d : IVec S1600000 32) : Mat 100000 1 :=
  shapeCast KernelIdeal.S100000x1 (Spelled.cnt d) KernelIdeal.Gen.shapeCasts_S100000_S100000x1

def net0 (x : FVec Ideal S100000x128 .f32) (W : FVec Ideal S128x128 .f32) (b : FVec Ideal S128 .f32) : Mat 100000 128 :=
  affine x (wT W) (rowOf b)

def netLayer (h : FVec Ideal S100000x128 .f32) (s d : IVec S1600000 32) (Wl : FVec Ideal S128x128 .f32) (bl : FVec Ideal S128 .f32)
    (Wr : FVec Ideal S128x128 .f32) : Mat 100000 128 :=
  sage (Spelled.agg s d h) (cntCol d) h (wT Wl) (wT Wr) (rowOf bl)

def netLogits (h : FVec Ideal S100000x128 .f32) (W : FVec Ideal S40x128 .f32) (b : FVec Ideal S40 .f32) : Mat 100000 40 :=
  affine h (wqT W) (rowOfQ b)

def netOut (h : FVec Ideal S100000x128 .f32) (W : FVec Ideal S40x128 .f32) (b : FVec Ideal S40 .f32) : Mat 100000 40 :=
  logSoftmax (netLogits h W b)

/-! ## Reading the small pieces -/

theorem wT_apply (W : FVec Ideal S128x128 .f32) (k q : Fin 128) : wT W (ix2 k q) = W (ix2 q k) :=
  swap_apply W _ k q

theorem wqT_apply (W : FVec Ideal S40x128 .f32) (k : Fin 128) (q : Fin 40) : wqT W (ix2 k q) = W (ix2 q k) :=
  swap_apply W _ k q

theorem rowOf_apply (b : FVec Ideal S128 .f32) (q : Fin 128) : rowOf b (ix2 (0 : Fin 1) q) = b (ix1 q) :=
  shapeCast_a_1a_apply b _ 0 q

theorem rowOfQ_apply (b : FVec Ideal S40 .f32) (q : Fin 40) : rowOfQ b (ix2 (0 : Fin 1) q) = b (ix1 q) :=
  shapeCast_a_1a_apply b _ 0 q

theorem cntCol_apply (d : IVec S1600000 32) (r : Fin 100000) : cntCol d (ix2 r (0 : Fin 1)) = Spelled.cnt d (ix1 r) :=
  column_apply _ _ r 0

theorem hostExp_apply {s : Shape} {φ : FTy} (v : FVec Ideal s φ) (i : s.Idx) : Host.exp v i = Ideal.exp (v i) := rfl

theorem hostLog_apply {s : Shape} {φ : FTy} (v : FVec Ideal s φ) (i : s.Idx) : Host.log v i = Ideal.log (v i) := rfl

/-! ## Stage by stage -/

theorem pre_eq (x : FVec Ideal S100000x128 .f32) (W : FVec Ideal S128x128 .f32) (b : FVec Ideal S128 .f32) :
    Spelled.pre x W b = net0 x W b := by
  funext i
  obtain ⟨r, q, rfl⟩ : ∃ (r : Fin 100000) (q : Fin 128), i = ix2 r q := ⟨i 0, i 1, eq_ix2 i⟩
  unfold Spelled.pre net0
  rw [addf_apply, Dense.hostRowBias_apply, HostRowOps.dot_apply plain128, affine_apply, rowOf_apply]
  exact congrArg (· + b (ix1 q)) (Finset.sum_congr rfl fun k _ => by rw [wT_apply]; exact congrArg (x (ix2 r k) * ·) (swap_apply W _ k q))

theorem logits_eq (h : FVec Ideal S100000x128 .f32) (W : FVec Ideal S40x128 .f32) (b : FVec Ideal S40 .f32) :
    Spelled.logits h W b = netLogits h W b := by
  funext i
  obtain ⟨r, q, rfl⟩ : ∃ (r : Fin 100000) (q : Fin 40), i = ix2 r q := ⟨i 0, i 1, eq_ix2 i⟩
  unfold Spelled.logits netLogits
  rw [addf_apply, Dense.hostRowBias_apply, HostRowOps.dot_apply plain40, affine_apply, rowOfQ_apply]
  exact congrArg (· + b (ix1 q)) (Finset.sum_congr rfl fun k _ => by rw [wqT_apply]; exact congrArg (h (ix2 r k) * ·) (swap_apply W _ k q))

/-- The reference's neighbour means are the sums divided by max(count, 1) row by row. -/
theorem mean_eq (s d : IVec S1600000 32) (h : FVec Ideal S100000x128 .f32) :
    Spelled.meanOf s d h = mean (Spelled.agg s d h) (cntCol d) := by
  funext i
  obtain ⟨r, k, rfl⟩ : ∃ (r : Fin 100000) (k : Fin 128), i = ix2 r k := ⟨i 0, i 1, eq_ix2 i⟩
  unfold Spelled.meanOf
  rw [hostDivf_apply, Sage.hostColumn_apply, maximumf_apply, broadcastInDim_scalar_apply, constant_apply, mean_apply, cntCol_apply] <;> rfl

theorem layer_eq (h : FVec Ideal S100000x128 .f32) (s d : IVec S1600000 32) (Wl : FVec Ideal S128x128 .f32) (bl : FVec Ideal S128 .f32)
    (Wr : FVec Ideal S128x128 .f32) : Spelled.layer h s d Wl bl Wr = netLayer h s d Wl bl Wr := by
  unfold Spelled.layer netLayer sage
  rw [← mean_eq]
  exact (Sage.hostLayer_eq plain128 (Spelled.meanOf s d h) h _ _ bl KernelIdeal.Gen.shapeCasts_S128_S1x128 _ _ _).symm

/-- The reference's shifted logits at (r, k): the logit less its row's maximum. -/
theorem shifted_apply (L : FVec Ideal S100000x40 .f32) (r : Fin 100000) (k : Fin 40) :
    Spelled.shifted L (ix2 r k) = L (ix2 r k) - rowMax L r := by
  unfold Spelled.shifted
  rw [subf_apply, Sage.hostColumn_apply, maximumf_apply, broadcastInDim_scalar_apply, constant_apply,
    HostRowOps.rowMax_apply L _ _ (by decide) _ r, constant_apply]
  exact congrArg (L (ix2 r k) - ·) (max_eq_right ((Finset.le_fold_max _).2 (Or.inl le_rfl)))

/-- The reference's log-softmax subtracts the row maximum first. -/
theorem lsm_eq (L : FVec Ideal S100000x40 .f32) : Spelled.logSoftmaxOf L = logSoftmaxShifted L := by
  funext i
  obtain ⟨r, q, rfl⟩ : ∃ (r : Fin 100000) (q : Fin 40), i = ix2 r q := ⟨i 0, i 1, eq_ix2 i⟩
  unfold Spelled.logSoftmaxOf
  rw [subf_apply, HostRowOps.colToMat_apply, hostLog_apply, HostRowOps.vecToCol_apply,
    HostRowOps.rowSum_apply _ _ _ (by decide) _ r, constant_apply, Ideal.ofBits_zero_f32, zero_add, shifted_apply]
  simp only [hostExp_apply, shifted_apply]
  rfl

/-- The last stage, for real logits. -/
theorem post_eq (h : FVec Ideal S100000x128 .f32) (W : FVec Ideal S40x128 .f32) (b : FVec Ideal S40 .f32)
    (hL : IsReal (netLogits h W b)) : Spelled.post h W b = netOut h W b := by
  unfold Spelled.post netOut
  rw [lsm_eq, logits_eq, logSoftmax_eq_shifted hL (by norm_num)]

/-! ## Entries stay real -/

theorem real_wT {W : FVec Ideal S128x128 .f32} (hW : IsReal W) : IsReal (wT W) := fun i => by
  obtain ⟨k, q, rfl⟩ : ∃ (k q : Fin 128), i = ix2 k q := ⟨i 0, i 1, eq_ix2 i⟩
  rw [wT_apply]; exact hW _

theorem real_wqT {W : FVec Ideal S40x128 .f32} (hW : IsReal W) : IsReal (wqT W) := fun i => by
  obtain ⟨k, q, rfl⟩ : ∃ (k : Fin 128) (q : Fin 40), i = ix2 k q := ⟨i 0, i 1, eq_ix2 i⟩
  rw [wqT_apply]; exact hW _

theorem real_rowOf {b : FVec Ideal S128 .f32} (hb : IsReal b) : IsReal (rowOf b) := fun i => by
  obtain ⟨u, q, rfl⟩ : ∃ (u : Fin 1) (q : Fin 128), i = ix2 u q := ⟨i 0, i 1, eq_ix2 i⟩
  obtain rfl : u = 0 := Subsingleton.elim _ _
  rw [rowOf_apply]; exact hb _

theorem real_rowOfQ {b : FVec Ideal S40 .f32} (hb : IsReal b) : IsReal (rowOfQ b) := fun i => by
  obtain ⟨u, q, rfl⟩ : ∃ (u : Fin 1) (q : Fin 40), i = ix2 u q := ⟨i 0, i 1, eq_ix2 i⟩
  obtain rfl : u = 0 := Subsingleton.elim _ _
  rw [rowOfQ_apply]; exact hb _

/-- An array filled with the value of one word is real when that value is. -/
theorem real_fill {T : Shape} (h : (⟨0, ![]⟩ : Shape).BroadcastsInDim T ![]) (w : BitVec (FTy.f32).bits) (r : ℝ)
    (hw : Ideal.ofBits .f32 w = (r : EReal)) : IsReal (broadcastInDim T ![] h (constant (F := Ideal) ⟨0, ![]⟩ .f32 w)) := fun j =>
  ⟨r, by rw [broadcastInDim_scalar_apply, constant_apply, hw]⟩

theorem zero_word : Ideal.ofBits .f32 0x00000000#32 = ((0 : ℝ) : EReal) := by rw [Ideal.ofBits_zero_f32]; rfl

theorem one_word : Ideal.ofBits .f32 0x3F800000#32 = ((1 : ℝ) : EReal) := by
  rw [show Ideal.ofBits .f32 0x3F800000#32 = (1 : EReal) from Sage.one_eq]; rfl

theorem real_cnt (d : IVec S1600000 32) : IsReal (Spelled.cnt d) :=
  scatterAdd_real _ _ (real_fill _ _ 0 zero_word) (real_fill _ _ 1 one_word)

theorem real_cntCol (d : IVec S1600000 32) : IsReal (cntCol d) := fun i => by
  obtain ⟨r, u, rfl⟩ : ∃ (r : Fin 100000) (u : Fin 1), i = ix2 r u := ⟨i 0, i 1, eq_ix2 i⟩
  obtain rfl : u = 0 := Subsingleton.elim _ _
  rw [cntCol_apply]; exact real_cnt d _

theorem real_agg (s d : IVec S1600000 32) {h : FVec Ideal S100000x128 .f32} (hh : IsReal h) : IsReal (Spelled.agg s d h) :=
  scatterAdd_real _ _ (real_fill _ _ 0 zero_word) (gather_real _ _ hh)

theorem real_net0 {x : FVec Ideal S100000x128 .f32} {W : FVec Ideal S128x128 .f32} {b : FVec Ideal S128 .f32}
    (hx : IsReal x) (hW : IsReal W) (hb : IsReal b) : IsReal (net0 x W b) :=
  affine_real hx (real_wT hW) (real_rowOf hb)

theorem real_netLayer {h : FVec Ideal S100000x128 .f32} (s d : IVec S1600000 32) {Wl : FVec Ideal S128x128 .f32}
    {bl : FVec Ideal S128 .f32} {Wr : FVec Ideal S128x128 .f32} (hh : IsReal h) (hl : IsReal Wl) (hb : IsReal bl) (hr : IsReal Wr) :
    IsReal (netLayer h s d Wl bl Wr) :=
  sage_real (real_agg s d hh) (real_cntCol d) hh (real_wT hl) (real_wT hr) (real_rowOf hb)

/-! ## The whole network -/

theorem networks_agree (x : FVec Ideal S100000x128 .f32) (s d : IVec S1600000 32)
    (Wp : FVec Ideal S128x128 .f32) (bp : FVec Ideal S128 .f32)
    (Wl0 : FVec Ideal S128x128 .f32) (bl0 : FVec Ideal S128 .f32) (Wr0 : FVec Ideal S128x128 .f32)
    (Wl1 : FVec Ideal S128x128 .f32) (bl1 : FVec Ideal S128 .f32) (Wr1 : FVec Ideal S128x128 .f32)
    (Wq : FVec Ideal S40x128 .f32) (bq : FVec Ideal S40 .f32)
    (hx : IsReal x) (hWp : IsReal Wp) (hbp : IsReal bp) (hWl0 : IsReal Wl0) (hbl0 : IsReal bl0) (hWr0 : IsReal Wr0)
    (hWl1 : IsReal Wl1) (hbl1 : IsReal bl1) (hWr1 : IsReal Wr1) (hWq : IsReal Wq) (hbq : IsReal bq) :
    Spelled.post (Spelled.layer (Spelled.layer (Spelled.pre x Wp bp) s d Wl0 bl0 Wr0) s d Wl1 bl1 Wr1) Wq bq
      = netOut (netLayer (netLayer (net0 x Wp bp) s d Wl0 bl0 Wr0) s d Wl1 bl1 Wr1) Wq bq := by
  rw [pre_eq, layer_eq, layer_eq]
  exact post_eq _ _ _ (affine_real
    (real_netLayer s d (real_netLayer s d (real_net0 hx hWp hbp) hWl0 hbl0 hWr0) hWl1 hbl1 hWr1) (real_wqT hWq) (real_rowOfQ hbq))

end Cert.Bridge

end
-- ==== Proof.Agree.lean ====
/-
  The kernel's result, as the network of the launch contents.

  The closed form of the result buffer unfolds to the network's stages applied to the argument arrays at launch: the
  two programs print the same gather, scatter, slice and transpose with the same dimension numbers, so the stage
  terms of one are those of the other.
-/
import proofs.«143336_j31722628448446_1_alg».proof.Proof.Bridge

set_option maxRecDepth 16384

noncomputable section

namespace Cert.Agree

open Idealize.ShloMosaic Idealize.ShloMosaic.TcCoe Idealize.SL.Sem Cert.Net Cert.Bridge
open Cert.KernelIdeal (nD τ sig main_arg0 main_arg1 main_arg2 main_arg3 main_arg4 main_arg5 main_arg6 main_arg7 main_arg8 main_arg9 main_arg10 main_arg11)

variable (m : (ℓ : Loc nD τ sig) → Buf (Elt Ideal) ℓ) (c : Dev nD)

theorem h0_eq : KernelIdeal.Fold.h0 m c
    = net0 (m ((c.tc : Thread nD τ).loc main_arg0)) (m ((c.tc : Thread nD τ).loc main_arg2)) (m ((c.tc : Thread nD τ).loc main_arg3)) := rfl

theorem h1_eq : KernelIdeal.Fold.h1 m c
    = netLayer (KernelIdeal.Fold.h0 m c) (ReferenceIdeal.Spelled.src (m ((c.tc : Thread nD τ).loc main_arg1)))
        (ReferenceIdeal.Spelled.dst (m ((c.tc : Thread nD τ).loc main_arg1)))
        (m ((c.tc : Thread nD τ).loc main_arg4)) (m ((c.tc : Thread nD τ).loc main_arg5)) (m ((c.tc : Thread nD τ).loc main_arg6)) := rfl

theorem h2_eq : KernelIdeal.Fold.h2 m c
    = netLayer (KernelIdeal.Fold.h1 m c) (ReferenceIdeal.Spelled.src (m ((c.tc : Thread nD τ).loc main_arg1)))
        (ReferenceIdeal.Spelled.dst (m ((c.tc : Thread nD τ).loc main_arg1)))
        (m ((c.tc : Thread nD τ).loc main_arg7)) (m ((c.tc : Thread nD τ).loc main_arg8)) (m ((c.tc : Thread nD τ).loc main_arg9)) := rfl

theorem out_eq : KernelIdeal.Fold.out m c
    = netOut (KernelIdeal.Fold.h2 m c) (m ((c.tc : Thread nD τ).loc main_arg10)) (m ((c.tc : Thread nD τ).loc main_arg11)) := rfl

/-- The kernel's result is the network of the launch contents. -/
theorem kernel_out : KernelIdeal.Fold.out m c
    = netOut (netLayer (netLayer
          (net0 (m ((c.tc : Thread nD τ).loc main_arg0)) (m ((c.tc : Thread nD τ).loc main_arg2)) (m ((c.tc : Thread nD τ).loc main_arg3)))
          (ReferenceIdeal.Spelled.src (m ((c.tc : Thread nD τ).loc main_arg1))) (ReferenceIdeal.Spelled.dst (m ((c.tc : Thread nD τ).loc main_arg1)))
          (m ((c.tc : Thread nD τ).loc main_arg4)) (m ((c.tc : Thread nD τ).loc main_arg5)) (m ((c.tc : Thread nD τ).loc main_arg6)))
          (ReferenceIdeal.Spelled.src (m ((c.tc : Thread nD τ).loc main_arg1))) (ReferenceIdeal.Spelled.dst (m ((c.tc : Thread nD τ).loc main_arg1)))
          (m ((c.tc : Thread nD τ).loc main_arg7)) (m ((c.tc : Thread nD τ).loc main_arg8)) (m ((c.tc : Thread nD τ).loc main_arg9)))
        (m ((c.tc : Thread nD τ).loc main_arg10)) (m ((c.tc : Thread nD τ).loc main_arg11)) := by
  rw [out_eq, h2_eq, h1_eq, h0_eq]

end Cert.Agree

end
-- ==== Proof.FiniteInputs.lean ====
/-
  From the precondition to real entries.

  The precondition tests every float argument array x with all(|x| < +infinity) and conjoins the eleven answers.  On the
  extended reals |x| is max(x, -x), the word of +infinity is the top element, and max(x, -x) below the top says that x
  is neither infinity: so an array that passes the test has only real entries, and the conjunction being true gives
  this for each of the eleven arrays.
-/
import proofs.«143336_j31722628448446_1_alg».proof.Defs
import Idealize.ShloMosaic.Lib.ReduceAll
import Idealize.ShloMosaic.Lib.ValueIdx
import Idealize.ShloMosaic.PureOps.Ideal.Laws
import proofs.«143336_j31722628448446_1_alg».proof.Proof.Net

set_option maxRecDepth 16384

noncomputable section

namespace Cert.FiniteInputs

open Idealize.ShloMosaic Idealize.ShloMosaic.ValueIdx Cert.Net

instance : Subsingleton (⟨0, ![]⟩ : Shape).Idx := ⟨fun a b => funext fun d => d.elim0⟩

/-- The word of +infinity denotes the top element. -/
theorem posInf_eq : Ideal.ofBits .f32 0x7F800000#32 = ⊤ := by simp [Ideal.ofBits, Ideal.ieee]

/-- An array that passes all(|x| < +infinity) has real entries. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ix0 = 1#1) : IsReal x := by
  intro i
  have h := Host.reduce_andi_all _ _ hr hu ix0 e i
  have h' : Ideal.cmp .olt (max (x i) (-(x i))) (Ideal.ofBits .f32 0x7F800000#32) = 1#1 := h
  rw [posInf_eq] at h'
  have hlt : max (x i) (-(x i)) < ⊤ := by
    by_contra hn
    have hd : decide (max (x i) (-(x i)) < ⊤) = false := decide_eq_false hn
    have h0 : Ideal.cmp .olt (max (x i) (-(x i))) ⊤ = 0#1 := by
      show BitVec.ofBool (decide (max (x i) (-(x i)) < ⊤)) = 0#1
      rw [hd]; rfl
    rw [h0] at h'
    exact absurd h' (by decide)
  refine real_of_ne (ne_of_lt (lt_of_le_of_lt (le_max_left _ _) hlt)) (fun hbot => ?_)
  rw [hbot] at hlt
  simp at hlt

variable [Cert.Pre_finite_inputs.Facts]

open Cert.Pre_finite_inputs in
/-- The precondition's conjunction, split: each float argument array has real entries. -/
theorem inputs_real (a0 : FVec Ideal S100000x128 .f32) (a1 : IVec S2x1600000 32) (a2 : FVec Ideal S128x128 .f32)
    (a3 : FVec Ideal S128 .f32) (a4 : FVec Ideal S128x128 .f32) (a5 : FVec Ideal S128 .f32) (a6 a7 : FVec Ideal S128x128 .f32)
    (a8 : FVec Ideal S128 .f32) (a9 : FVec Ideal S128x128 .f32) (a10 : FVec Ideal S40x128 .f32) (a11 : FVec Ideal S40 .f32)
    (h : fn (F := Ideal) a0 a1 a2 a3 a4 a5 a6 a7 a8 a9 a10 a11 = fun _ => 1#1) :
    IsReal a0 ∧ IsReal a2 ∧ IsReal a3 ∧ IsReal a4 ∧ IsReal a5 ∧ IsReal a6 ∧ IsReal a7 ∧ IsReal a8 ∧ IsReal a9
      ∧ IsReal a10 ∧ IsReal a11 := by
  have h0 := congrFun h ix0
  dsimp only [fn, fn_part1, fn_part2, fn_part3] at h0
  obtain ⟨h48, e11⟩ := IntOp.andi_eq_one.1 h0
  obtain ⟨h43, e10⟩ := IntOp.andi_eq_one.1 h48
  obtain ⟨h38, e9⟩ := IntOp.andi_eq_one.1 h43
  obtain ⟨h33, e8⟩ := IntOp.andi_eq_one.1 h38
  obtain ⟨h28, e7⟩ := IntOp.andi_eq_one.1 h33
  obtain ⟨h23, e6⟩ := IntOp.andi_eq_one.1 h28
  obtain ⟨h18, e5⟩ := IntOp.andi_eq_one.1 h23
  obtain ⟨h13, e4⟩ := IntOp.andi_eq_one.1 h18
  obtain ⟨h8, e3⟩ := IntOp.andi_eq_one.1 h13
  obtain ⟨e0, e2⟩ := IntOp.andi_eq_one.1 h8
  exact ⟨real_of_all a0 _ _ _ e0, real_of_all a2 _ _ _ e2, real_of_all a3 _ _ _ e3, real_of_all a4 _ _ _ e4,
    real_of_all a5 _ _ _ e5, real_of_all a6 _ _ _ e6, real_of_all a7 _ _ _ e7, real_of_all a8 _ _ _ e8,
    real_of_all a9 _ _ _ e9, real_of_all a10 _ _ _ e10, real_of_all a11 _ _ _ e11⟩

end Cert.FiniteInputs

end
-- ==== Proof.RefRun.lean ====
/- The reference program's @main as a LIST of its 101 host operations, cut in order into four stretches — the input
   projection (with the two rows of the edge list), the first mean-aggregating layer with its rectifier, the second
   layer with its rectifier, and the output projection with the log-softmax — and its run: every weakly fair
   execution terminates with each buffer at the fold of the operations' results over the launch contents. A called
   function's operations stand in its call's place, over the call's own buffers. -/
import proofs.«143336_j31722628448446_1_alg».proof.Proof.Gen.ReferenceIdeal
import Idealize.ShloMosaic.Lib.StableHlo.Run
import Idealize.ShloMosaic.PureOps.Ideal

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The 9 operations writing `main_v0` … `main_v8`: the source and destination rows of the edge list, and the
    input projection `x·W_preᵀ + b_pre`. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    unary main_arg2 main_v4 ((transpose S128x128 [1, 0] · transposes_S128x128_S128x128_1_0) : (⟨S128x128, .f32⟩ : BufTy).Contents (Elt F) → (⟨S128x128, .f32⟩ : BufTy).Contents (Elt F)),
    binary main_arg0 main_v4 main_v5 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v6 (broadcastInDim S1x128 ![1] bcast_S128_S1x128_1 : (⟨S128, .f32⟩ : BufTy).Contents (Elt F) → (⟨S1x128, .f32⟩ : BufTy).Contents (Elt F)),
    unary main_v6 main_v7 (broadcastInDim S100000x128 ![0, 1] bcast_S1x128_S100000x128_0_1 : (⟨S1x128, .f32⟩ : BufTy).Contents (Elt F) → (⟨S100000x128, .f32⟩ : BufTy).Contents (Elt F)),
    binary main_v5 main_v7 main_v8 (addf : (⟨S100000x128, .f32⟩ : BufTy).Contents (Elt F) → (⟨S100000x128, .f32⟩ : BufTy).Contents (Elt F) → (⟨S100000x128, .f32⟩ : BufTy).Contents (Elt F)) ]

/-- The 36 operations from `main_c` through `main_v36`: the first layer — gather at the sources, segment sum and
    count at the destinations, the mean, the two products, the bias, and the rectifier. -/
abbrev opsB : List (HloOp τ sig (Elt F)) :=
  [ nullary main_c (constantI S_ 32 0#32),
    unary main_c main_v9 (broadcastInDim S1600000 ![] bcast_S_S1600000 : (⟨S_, .i32⟩ : BufTy).Contents (Elt F) → (⟨S1600000, .i32⟩ : BufTy).Contents (Elt F)),
    binary main_v1 main_v9 main_v10 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v11 (broadcastInDim S1600000 ![] bcast_S_S1600000 : (⟨S_, .i32⟩ : BufTy).Contents (Elt F) → (⟨S1600000, .i32⟩ : BufTy).Contents (Elt F)),
    binary main_v1 main_v11 main_v12 (addi : (⟨S1600000, .i32⟩ : BufTy).Contents (Elt F) → (⟨S1600000, .i32⟩ : BufTy).Contents (Elt F) → (⟨S1600000, .i32⟩ : BufTy).Contents (Elt F)),
    ternary main_v10 main_v12 main_v1 main_v13 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v13 main_v14 (broadcastInDim S1600000x1 ![0] bcast_S1600000_S1600000x1_0 : (⟨S1600000, .i32⟩ : BufTy).Contents (Elt F) → (⟨S1600000x1, .i32⟩ : BufTy).Contents (Elt F)),
    binary main_v8 main_v14 main_v15 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v16 (broadcastInDim S100000x128 ![] bcast_S_S100000x128 : (⟨S_, .f32⟩ : BufTy).Contents (Elt F) → (⟨S100000x128, .f32⟩ : BufTy).Contents (Elt F)),
    unary main_v3 main_v17 (broadcastInDim S1600000x1 ![0] bcast_S1600000_S1600000x1_0 : (⟨S1600000, .i32⟩ : BufTy).Contents (Elt F) → (⟨S1600000x1, .i32⟩ : BufTy).Contents (Elt F)),
    ternary main_v16 main_v17 main_v15 main_v18 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v19 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v20 (broadcastInDim S100000 ![] bcast_S_S100000 : (⟨S_, .f32⟩ : BufTy).Contents (Elt F) → (⟨S100000, .f32⟩ : BufTy).Contents (Elt F)),
    unary main_v3 main_v21 (broadcastInDim S1600000x1 ![0] bcast_S1600000_S1600000x1_0 : (⟨S1600000, .i32⟩ : BufTy).Contents (Elt F) → (⟨S1600000x1, .i32⟩ : BufTy).Contents (Elt F)),
    ternary main_v20 main_v21 main_v19 main_v22 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v23 (broadcastInDim S100000 ![] bcast_S_S100000 : (⟨S_, .f32⟩ : BufTy).Contents (Elt F) → (⟨S100000, .f32⟩ : BufTy).Contents (Elt F)),
    binary main_v22 main_v23 main_v24 (maximumf : (⟨S100000, .f32⟩ : BufTy).Contents (Elt F) → (⟨S100000, .f32⟩ : BufTy).Contents (Elt F) → (⟨S100000, .f32⟩ : BufTy).Contents (Elt F)),
    unary main_v24 main_v25 (broadcastInDim S100000x1 ![0] bcast_S100000_S100000x1_0 : (⟨S100000, .f32⟩ : BufTy).Contents (Elt F) → (⟨S100000x1, .f32⟩ : BufTy).Contents (Elt F)),
    unary main_v25 main_v26 (broadcastInDim S100000x128 ![0, 1] bcast_S100000x1_S100000x128_0_1 : (⟨S100000x1, .f32⟩ : BufTy).Contents (Elt F) → (⟨S100000x128, .f32⟩ : BufTy).Contents (Elt F)),
    binary main_v18 main_v26 main_v27 (Host.divf : (⟨S100000x128, .f32⟩ : BufTy).Contents (Elt F) → (⟨S100000x128, .f32⟩ : BufTy).Contents (Elt F) → (⟨S100000x128, .f32⟩ : BufTy).Contents (Elt F)),
    unary main_arg4 main_v28 ((transpose S128x128 [1, 0] · transposes_S128x128_S128x128_1_0) : (⟨S128x128, .f32⟩ : BufTy).Contents (Elt F) → (⟨S128x128, .f32⟩ : BufTy).Contents (Elt F)),
    binary main_v27 main_v28 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v30 (broadcastInDim S1x128 ![1] bcast_S128_S1x128_1 : (⟨S128, .f32⟩ : BufTy).Contents (Elt F) → (⟨S1x128, .f32⟩ : BufTy).Contents (Elt F)),
    unary main_v30 main_v31 (broadcastInDim S100000x128 ![0, 1] bcast_S1x128_S100000x128_0_1 : (⟨S1x128, .f32⟩ : BufTy).Contents (Elt F) → (⟨S100000x128, .f32⟩ : BufTy).Contents (Elt F)),
    binary main_v29 main_v31 main_v32 (addf : (⟨S100000x128, .f32⟩ : BufTy).Contents (Elt F) → (⟨S100000x128, .f32⟩ : BufTy).Contents (Elt F) → (⟨S100000x128, .f32⟩ : BufTy).Contents (Elt F)),
    unary main_arg6 main_v33 ((transpose S128x128 [1, 0] · transposes_S128x128_S128x128_1_0) : (⟨S128x128, .f32⟩ : BufTy).Contents (Elt F) → (⟨S128x128, .f32⟩ : BufTy).Contents (Elt F)),
    binary main_v8 main_v33 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v32 main_v34 main_v35 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v35) (TRef.of (T := ⟨S100000x128, .f32⟩) main_call0_v0) (TRef.of (T := ⟨S100000x128, .f32⟩) main_v36) maximumf ]

/-- The 36 operations from `main_c_4` through `main_v64`: the second layer, the same line over its own buffers. -/
abbrev opsC : List (HloOp τ sig (Elt F)) :=
  [ nullary main_c_4 (constantI S_ 32 0#32),
    unary main_c_4 main_v37 (broadcastInDim S1600000 ![] bcast_S_S1600000 : (⟨S_, .i32⟩ : BufTy).Contents (Elt F) → (⟨S1600000, .i32⟩ : BufTy).Contents (Elt F)),
    binary main_v1 main_v37 main_v38 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v39 (broadcastInDim S1600000 ![] bcast_S_S1600000 : (⟨S_, .i32⟩ : BufTy).Contents (Elt F) → (⟨S1600000, .i32⟩ : BufTy).Contents (Elt F)),
    binary main_v1 main_v39 main_v40 (addi : (⟨S1600000, .i32⟩ : BufTy).Contents (Elt F) → (⟨S1600000, .i32⟩ : BufTy).Contents (Elt F) → (⟨S1600000, .i32⟩ : BufTy).Contents (Elt F)),
    ternary main_v38 main_v40 main_v1 main_v41 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v41 main_v42 (broadcastInDim S1600000x1 ![0] bcast_S1600000_S1600000x1_0 : (⟨S1600000, .i32⟩ : BufTy).Contents (Elt F) → (⟨S1600000x1, .i32⟩ : BufTy).Contents (Elt F)),
    binary main_v36 main_v42 main_v43 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_6 (constant S_ .f32 0x00000000#32),
    unary main_cst_6 main_v44 (broadcastInDim S100000x128 ![] bcast_S_S100000x128 : (⟨S_, .f32⟩ : BufTy).Contents (Elt F) → (⟨S100000x128, .f32⟩ : BufTy).Contents (Elt F)),
    unary main_v3 main_v45 (broadcastInDim S1600000x1 ![0] bcast_S1600000_S1600000x1_0 : (⟨S1600000, .i32⟩ : BufTy).Contents (Elt F) → (⟨S1600000x1, .i32⟩ : BufTy).Contents (Elt F)),
    ternary main_v44 main_v45 main_v43 main_v46 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_7 (constant S_ .f32 0x3F800000#32),
    unary main_cst_7 main_v47 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v48 (broadcastInDim S100000 ![] bcast_S_S100000 : (⟨S_, .f32⟩ : BufTy).Contents (Elt F) → (⟨S100000, .f32⟩ : BufTy).Contents (Elt F)),
    unary main_v3 main_v49 (broadcastInDim S1600000x1 ![0] bcast_S1600000_S1600000x1_0 : (⟨S1600000, .i32⟩ : BufTy).Contents (Elt F) → (⟨S1600000x1, .i32⟩ : BufTy).Contents (Elt F)),
    ternary main_v48 main_v49 main_v47 main_v50 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v51 (broadcastInDim S100000 ![] bcast_S_S100000 : (⟨S_, .f32⟩ : BufTy).Contents (Elt F) → (⟨S100000, .f32⟩ : BufTy).Contents (Elt F)),
    binary main_v50 main_v51 main_v52 (maximumf : (⟨S100000, .f32⟩ : BufTy).Contents (Elt F) → (⟨S100000, .f32⟩ : BufTy).Contents (Elt F) → (⟨S100000, .f32⟩ : BufTy).Contents (Elt F)),
    unary main_v52 main_v53 (broadcastInDim S100000x1 ![0] bcast_S100000_S100000x1_0 : (⟨S100000, .f32⟩ : BufTy).Contents (Elt F) → (⟨S100000x1, .f32⟩ : BufTy).Contents (Elt F)),
    unary main_v53 main_v54 (broadcastInDim S100000x128 ![0, 1] bcast_S100000x1_S100000x128_0_1 : (⟨S100000x1, .f32⟩ : BufTy).Contents (Elt F) → (⟨S100000x128, .f32⟩ : BufTy).Contents (Elt F)),
    binary main_v46 main_v54 main_v55 (Host.divf : (⟨S100000x128, .f32⟩ : BufTy).Contents (Elt F) → (⟨S100000x128, .f32⟩ : BufTy).Contents (Elt F) → (⟨S100000x128, .f32⟩ : BufTy).Contents (Elt F)),
    unary main_arg7 main_v56 ((transpose S128x128 [1, 0] · transposes_S128x128_S128x128_1_0) : (⟨S128x128, .f32⟩ : BufTy).Contents (Elt F) → (⟨S128x128, .f32⟩ : BufTy).Contents (Elt F)),
    binary main_v55 main_v56 main_v57 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v58 (broadcastInDim S1x128 ![1] bcast_S128_S1x128_1 : (⟨S128, .f32⟩ : BufTy).Contents (Elt F) → (⟨S1x128, .f32⟩ : BufTy).Contents (Elt F)),
    unary main_v58 main_v59 (broadcastInDim S100000x128 ![0, 1] bcast_S1x128_S100000x128_0_1 : (⟨S1x128, .f32⟩ : BufTy).Contents (Elt F) → (⟨S100000x128, .f32⟩ : BufTy).Contents (Elt F)),
    binary main_v57 main_v59 main_v60 (addf : (⟨S100000x128, .f32⟩ : BufTy).Contents (Elt F) → (⟨S100000x128, .f32⟩ : BufTy).Contents (Elt F) → (⟨S100000x128, .f32⟩ : BufTy).Contents (Elt F)),
    unary main_arg9 main_v61 ((transpose S128x128 [1, 0] · transposes_S128x128_S128x128_1_0) : (⟨S128x128, .f32⟩ : BufTy).Contents (Elt F) → (⟨S128x128, .f32⟩ : BufTy).Contents (Elt F)),
    binary main_v36 main_v61 main_v62 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v60 main_v62 main_v63 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v63) (TRef.of (T := ⟨S100000x128, .f32⟩) main_call1_v0) (TRef.of (T := ⟨S100000x128, .f32⟩) main_v64) maximumf ]

/-- The 20 operations from `main_v65` through `main_v70`: the output projection and the log-softmax of its rows. -/
abbrev opsD : List (HloOp τ sig (Elt F)) :=
  [ unary main_arg10 main_v65 ((transpose S128x40 [1, 0] · transposes_S40x128_S128x40_1_0) : (⟨S40x128, .f32⟩ : BufTy).Contents (Elt F) → (⟨S128x40, .f32⟩ : BufTy).Contents (Elt F)),
    binary main_v64 main_v65 main_v66 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg11 main_v67 (broadcastInDim S1x40 ![1] bcast_S40_S1x40_1 : (⟨S40, .f32⟩ : BufTy).Contents (Elt F) → (⟨S1x40, .f32⟩ : BufTy).Contents (Elt F)),
    unary main_v67 main_v68 (broadcastInDim S100000x40 ![0, 1] bcast_S1x40_S100000x40_0_1 : (⟨S1x40, .f32⟩ : BufTy).Contents (Elt F) → (⟨S100000x40, .f32⟩ : BufTy).Contents (Elt F)),
    binary main_v66 main_v68 main_v69 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call2_cst) (constant S_ .f32 0xFF800000#32),
    TRef.binary (TRef.of (T := ⟨S100000x40, .f32⟩) main_v69) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v69) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v70) subf ]

/-- @main's 101 operations, in order. -/
abbrev ops : List (HloOp τ sig (Elt F)) := opsA ++ opsB ++ opsC ++ opsD

set_option maxRecDepth 16384 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem opsA_sub : (opsA : List (HloOp τ sig (Elt F))).Forall fun op => op.bufs ⊆ tcRefs τ sig :=
  ⟨unary_bufs_sub .., reshape_bufs_sub .., unary_bufs_sub .., reshape_bufs_sub .., unary_bufs_sub .., binary_bufs_sub .., unary_bufs_sub .., unary_bufs_sub .., binary_bufs_sub ..⟩
set_option maxRecDepth 8192 in
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub ..⟩
set_option maxRecDepth 8192 in
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub ..⟩
set_option maxRecDepth 8192 in
theorem opsD_sub : (opsD : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem ops_sub : (ops : List (HloOp τ sig (Elt F))).Forall fun op => op.bufs ⊆ tcRefs τ sig :=
  forall_append (forall_append (forall_append opsA_sub opsB_sub) opsC_sub) opsD_sub

/-- Every operation determines its results (none allocates a buffer at contents not chosen). -/
theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h
theorem opsD_fresh : ∀ op ∈ (opsD : List (HloOp τ sig (Elt F))), op.fresh = ∅ := by
  intro _ h; (repeat (cases h with | head => rfl | tail _ h => ?_)); exact nomatch h
theorem ops_fresh : ∀ op ∈ (ops : List (HloOp τ sig (Elt F))), op.fresh = ∅ := fun op h =>
  (List.mem_append.mp h).elim (fun h => (List.mem_append.mp h).elim (fun h => (List.mem_append.mp h).elim
    (opsA_fresh op) (opsB_fresh op)) (opsC_fresh op)) (opsD_fresh op)

/-- On every device, over the extended reals, from any memory with zero counters: every weakly fair execution of
    @main terminates, and each buffer ends at the fold of the 101 operations' results over the launch contents. -/
theorem run_raw (m : (ℓ : Loc nD τ sig) → Buf (Elt Ideal) ℓ) (ρ : Dev nD → PrngReg) :
    θ_run defs (onTc (τ := τ) (main (F := Ideal))) ⟨m, fun _ => 0, ρ⟩ fun r =>
      ∀ (c : Dev nD) (b : Ref sig .tc),
        r.2.mem ((c.tc : Thread nD τ).loc b) = after (ops (F := Ideal)) (launchContents m c) (Proc.devRef .tc b) :=
  run_seq scopedRefs_eq scopedSems_eq defs main (fun _ => ops) main_eq (fun _ => ops_sub) m ρ (fun _ => ops_fresh)

end Cert.ReferenceIdeal.HandRun

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.LibTypedRef.lean ====
/-
  Typed references and the transports they carry.

  A typed reference pairs a buffer with the type of the tensor value it holds; contents at the value's type are moved to
  contents of the buffer and back along the equation between the two types.  The transports change nothing: going there and
  back is the identity, and a transported value equals any value of the other type that it is heterogeneously equal to.
-/
import Idealize.ShloMosaic.Lib.StableHlo.Run

noncomputable section

namespace Cert.TypedRef

open Idealize.ShloMosaic Idealize.ShloMosaic.StableHlo

variable {sig : RefSig} {Val : EltTy → Type} {T : BufTy}

/-- To the buffer's type and back is the identity. -/
theorem ofBuf_toBuf (x : TRef sig T) (v : T.Contents Val) : x.ofBuf (x.toBuf v) = v := by
  obtain ⟨r, h, h1, h2⟩ := x
  subst h
  rfl

/-- A value moved to the buffer's type is any value of that type it is heterogeneously equal to. -/
theorem toBuf_eq (x : TRef sig T) (v : T.Contents Val) (w : x.ref.ty.Contents Val) (h : HEq v w) : x.toBuf v = w :=
  eq_of_heq ((cast_heq _ v).trans h)

/-- A value moved from the buffer's type is any value of the value's type it is heterogeneously equal to. -/
theorem ofBuf_eq (x : TRef sig T) (v : x.ref.ty.Contents Val) (w : T.Contents Val) (h : HEq v w) : x.ofBuf v = w :=
  eq_of_heq ((cast_heq _ v).trans h)

end Cert.TypedRef

end
-- ==== Proof.RefValue.lean ====
/- What the reference program computes, stage by stage. Its 101 operations run in four stretches; each stretch's
   result is a function of a few buffers it reads: the two rows of the edge list and the input projection; one
   mean-aggregating layer (the same function for both layers); and the output projection with the row-wise
   log-softmax. The functions are the spelled stage terms; the final value is their composition over the launch
   contents of the arguments, each stage named so that no stage's term is written twice. A stretch that ends in a
   called function's operations is read in two or three consecutive pieces, cut where one value feeds the next. -/
import proofs.«143336_j31722628448446_1_alg».proof.Proof.RefRun
import proofs.«143336_j31722628448446_1_alg».proof.Proof.RefSpelling
import proofs.«143336_j31722628448446_1_alg».proof.Proof.LibRegionOp
import proofs.«143336_j31722628448446_1_alg».proof.Proof.LibTypedRef

noncomputable section

namespace Cert.ReferenceIdeal.RefValue

open Cert.ReferenceIdeal Cert.ReferenceIdeal.Gen Cert.ReferenceIdeal.HandRun Idealize.ShloMosaic Idealize.ShloMosaic.TcCoe Idealize.SL.Sem Idealize.ShloMosaic.StableHlo

/-! ## A layer before its rectifier, and the log-softmax after the shift -/

/-- A layer's sum before the rectifier: the neighbour means times `Wlᵀ`, plus `bl`, plus `h·Wrᵀ`. -/
def preRelu (h : FVec Ideal S100000x128 .f32) (s d : IVec S1600000 32) (Wl : FVec Ideal S128x128 .f32) (bl : FVec Ideal S128 .f32)
    (Wr : FVec Ideal S128x128 .f32) : FVec Ideal S100000x128 .f32 :=
  addf
    (addf (Host.dotGeneral dot_S100000x128_S128x128_S100000x128_1_0_0_1_n_n none (Spelled.meanOf s d h)
        (transpose S128x128 [1, 0] Wl transposes_S128x128_S128x128_1_0))
      (broadcastInDim S100000x128 ![0, 1] bcast_S1x128_S100000x128_0_1 (broadcastInDim S1x128 ![1] bcast_S128_S1x128_1 bl)))
    (Host.dotGeneral dot_S100000x128_S128x128_S100000x128_1_0_0_1_n_n none h (transpose S128x128 [1, 0] Wr transposes_S128x128_S128x128_1_0))

/-- The rectifier: the maximum with zero. -/
def relu (z : FVec Ideal S100000x128 .f32) : FVec Ideal S100000x128 .f32 :=
  maximumf z (broadcastInDim S100000x128 ![] bcast_S_S100000x128 (constant (F := Ideal) S_ .f32 0x00000000#32))

/-- A layer is the rectifier of its sum. -/
theorem layer_eq (h : FVec Ideal S100000x128 .f32) (s d : IVec S1600000 32) (Wl : FVec Ideal S128x128 .f32) (bl : FVec Ideal S128 .f32)
    (Wr : FVec Ideal S128x128 .f32) : Spelled.layer h s d Wl bl Wr = relu (preRelu h s d Wl bl Wr) := rfl

/-- Shifted logits less the logarithm of the row sums of their exponentials. -/
def lessLogSumExp (z : FVec Ideal S100000x40 .f32) : FVec Ideal S100000x40 .f32 :=
  subf z (broadcastInDim S100000x40 ![0, 1] bcast_S100000x1_S100000x40_0_1
    (Host.log (broadcastInDim S100000x1 ![0] bcast_S100000_S100000x1_0
      (Host.reduceAdd (Host.exp z) (constant (F := Ideal) S_ .f32 0x00000000#32) reducesTo_S100000x40_S100000_d1 h_S_))))

/-- The log-softmax is that of the shifted logits. -/
theorem logSoftmaxOf_eq (L : FVec Ideal S100000x40 .f32) : Spelled.logSoftmaxOf L = lessLogSumExp (Spelled.shifted L) := rfl

/-! ## The pieces of the stretches that end in a called function -/

section Pieces

variable {F : FTy → Type} [FloatOps F]

/-- The first layer up to its sum: `main_c` … `main_v35`. -/
abbrev opsBm : List (HloOp τ sig (Elt F)) :=
  [ nullary main_c (constantI S_ 32 0#32),
    unary main_c main_v9 (broadcastInDim S1600000 ![] bcast_S_S1600000 : (⟨S_, .i32⟩ : BufTy).Contents (Elt F) → (⟨S1600000, .i32⟩ : BufTy).Contents (Elt F)),
    binary main_v1 main_v9 main_v10 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v11 (broadcastInDim S1600000 ![] bcast_S_S1600000 : (⟨S_, .i32⟩ : BufTy).Contents (Elt F) → (⟨S1600000, .i32⟩ : BufTy).Contents (Elt F)),
    binary main_v1 main_v11 main_v12 (addi : (⟨S1600000, .i32⟩ : BufTy).Contents (Elt F) → (⟨S1600000, .i32⟩ : BufTy).Contents (Elt F) → (⟨S1600000, .i32⟩ : BufTy).Contents (Elt F)),
    ternary main_v10 main_v12 main_v1 main_v13 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v13 main_v14 (broadcastInDim S1600000x1 ![0] bcast_S1600000_S1600000x1_0 : (⟨S1600000, .i32⟩ : BufTy).Contents (Elt F) → (⟨S1600000x1, .i32⟩ : BufTy).Contents (Elt F)),
    binary main_v8 main_v14 main_v15 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v16 (broadcastInDim S100000x128 ![] bcast_S_S100000x128 : (⟨S_, .f32⟩ : BufTy).Contents (Elt F) → (⟨S100000x128, .f32⟩ : BufTy).Contents (Elt F)),
    unary main_v3 main_v17 (broadcastInDim S1600000x1 ![0] bcast_S1600000_S1600000x1_0 : (⟨S1600000, .i32⟩ : BufTy).Contents (Elt F) → (⟨S1600000x1, .i32⟩ : BufTy).Contents (Elt F)),
    ternary main_v16 main_v17 main_v15 main_v18 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v19 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v20 (broadcastInDim S100000 ![] bcast_S_S100000 : (⟨S_, .f32⟩ : BufTy).Contents (Elt F) → (⟨S100000, .f32⟩ : BufTy).Contents (Elt F)),
    unary main_v3 main_v21 (broadcastInDim S1600000x1 ![0] bcast_S1600000_S1600000x1_0 : (⟨S1600000, .i32⟩ : BufTy).Contents (Elt F) → (⟨S1600000x1, .i32⟩ : BufTy).Contents (Elt F)),
    ternary main_v20 main_v21 main_v19 main_v22 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v23 (broadcastInDim S100000 ![] bcast_S_S100000 : (⟨S_, .f32⟩ : BufTy).Contents (Elt F) → (⟨S100000, .f32⟩ : BufTy).Contents (Elt F)),
    binary main_v22 main_v23 main_v24 (maximumf : (⟨S100000, .f32⟩ : BufTy).Contents (Elt F) → (⟨S100000, .f32⟩ : BufTy).Contents (Elt F) → (⟨S100000, .f32⟩ : BufTy).Contents (Elt F)),
    unary main_v24 main_v25 (broadcastInDim S100000x1 ![0] bcast_S100000_S100000x1_0 : (⟨S100000, .f32⟩ : BufTy).Contents (Elt F) → (⟨S100000x1, .f32⟩ : BufTy).Contents (Elt F)),
    unary main_v25 main_v26 (broadcastInDim S100000x128 ![0, 1] bcast_S100000x1_S100000x128_0_1 : (⟨S100000x1, .f32⟩ : BufTy).Contents (Elt F) → (⟨S100000x128, .f32⟩ : BufTy).Contents (Elt F)),
    binary main_v18 main_v26 main_v27 (Host.divf : (⟨S100000x128, .f32⟩ : BufTy).Contents (Elt F) → (⟨S100000x128, .f32⟩ : BufTy).Contents (Elt F) → (⟨S100000x128, .f32⟩ : BufTy).Contents (Elt F)),
    unary main_arg4 main_v28 ((transpose S128x128 [1, 0] · transposes_S128x128_S128x128_1_0) : (⟨S128x128, .f32⟩ : BufTy).Contents (Elt F) → (⟨S128x128, .f32⟩ : BufTy).Contents (Elt F)),
    binary main_v27 main_v28 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v30 (broadcastInDim S1x128 ![1] bcast_S128_S1x128_1 : (⟨S128, .f32⟩ : BufTy).Contents (Elt F) → (⟨S1x128, .f32⟩ : BufTy).Contents (Elt F)),
    unary main_v30 main_v31 (broadcastInDim S100000x128 ![0, 1] bcast_S1x128_S100000x128_0_1 : (⟨S1x128, .f32⟩ : BufTy).Contents (Elt F) → (⟨S100000x128, .f32⟩ : BufTy).Contents (Elt F)),
    binary main_v29 main_v31 main_v32 (addf : (⟨S100000x128, .f32⟩ : BufTy).Contents (Elt F) → (⟨S100000x128, .f32⟩ : BufTy).Contents (Elt F) → (⟨S100000x128, .f32⟩ : BufTy).Contents (Elt F)),
    unary main_arg6 main_v33 ((transpose S128x128 [1, 0] · transposes_S128x128_S128x128_1_0) : (⟨S128x128, .f32⟩ : BufTy).Contents (Elt F) → (⟨S128x128, .f32⟩ : BufTy).Contents (Elt F)),
    binary main_v8 main_v33 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v32 main_v34 main_v35 (addf : (⟨S100000x128, .f32⟩ : BufTy).Contents (Elt F) → (⟨S100000x128, .f32⟩ : BufTy).Contents (Elt F) → (⟨S100000x128, .f32⟩ : BufTy).Contents (Elt F)) ]

/-- The first layer's rectifier: `main_call0_cst`, `main_call0_v0`, `main_v36`. -/
abbrev opsBr : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v35) (TRef.of (T := ⟨S100000x128, .f32⟩) main_call0_v0) (TRef.of (T := ⟨S100000x128, .f32⟩) main_v36) maximumf ]

/-- The second layer up to its sum: `main_c_4` … `main_v63`. -/
abbrev opsCm : List (HloOp τ sig (Elt F)) :=
  [ nullary main_c_4 (constantI S_ 32 0#32),
    unary main_c_4 main_v37 (broadcastInDim S1600000 ![] bcast_S_S1600000 : (⟨S_, .i32⟩ : BufTy).Contents (Elt F) → (⟨S1600000, .i32⟩ : BufTy).Contents (Elt F)),
    binary main_v1 main_v37 main_v38 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v39 (broadcastInDim S1600000 ![] bcast_S_S1600000 : (⟨S_, .i32⟩ : BufTy).Contents (Elt F) → (⟨S1600000, .i32⟩ : BufTy).Contents (Elt F)),
    binary main_v1 main_v39 main_v40 (addi : (⟨S1600000, .i32⟩ : BufTy).Contents (Elt F) → (⟨S1600000, .i32⟩ : BufTy).Contents (Elt F) → (⟨S1600000, .i32⟩ : BufTy).Contents (Elt F)),
    ternary main_v38 main_v40 main_v1 main_v41 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v41 main_v42 (broadcastInDim S1600000x1 ![0] bcast_S1600000_S1600000x1_0 : (⟨S1600000, .i32⟩ : BufTy).Contents (Elt F) → (⟨S1600000x1, .i32⟩ : BufTy).Contents (Elt F)),
    binary main_v36 main_v42 main_v43 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_6 (constant S_ .f32 0x00000000#32),
    unary main_cst_6 main_v44 (broadcastInDim S100000x128 ![] bcast_S_S100000x128 : (⟨S_, .f32⟩ : BufTy).Contents (Elt F) → (⟨S100000x128, .f32⟩ : BufTy).Contents (Elt F)),
    unary main_v3 main_v45 (broadcastInDim S1600000x1 ![0] bcast_S1600000_S1600000x1_0 : (⟨S1600000, .i32⟩ : BufTy).Contents (Elt F) → (⟨S1600000x1, .i32⟩ : BufTy).Contents (Elt F)),
    ternary main_v44 main_v45 main_v43 main_v46 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_7 (constant S_ .f32 0x3F800000#32),
    unary main_cst_7 main_v47 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v48 (broadcastInDim S100000 ![] bcast_S_S100000 : (⟨S_, .f32⟩ : BufTy).Contents (Elt F) → (⟨S100000, .f32⟩ : BufTy).Contents (Elt F)),
    unary main_v3 main_v49 (broadcastInDim S1600000x1 ![0] bcast_S1600000_S1600000x1_0 : (⟨S1600000, .i32⟩ : BufTy).Contents (Elt F) → (⟨S1600000x1, .i32⟩ : BufTy).Contents (Elt F)),
    ternary main_v48 main_v49 main_v47 main_v50 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v51 (broadcastInDim S100000 ![] bcast_S_S100000 : (⟨S_, .f32⟩ : BufTy).Contents (Elt F) → (⟨S100000, .f32⟩ : BufTy).Contents (Elt F)),
    binary main_v50 main_v51 main_v52 (maximumf : (⟨S100000, .f32⟩ : BufTy).Contents (Elt F) → (⟨S100000, .f32⟩ : BufTy).Contents (Elt F) → (⟨S100000, .f32⟩ : BufTy).Contents (Elt F)),
    unary main_v52 main_v53 (broadcastInDim S100000x1 ![0] bcast_S100000_S100000x1_0 : (⟨S100000, .f32⟩ : BufTy).Contents (Elt F) → (⟨S100000x1, .f32⟩ : BufTy).Contents (Elt F)),
    unary main_v53 main_v54 (broadcastInDim S100000x128 ![0, 1] bcast_S100000x1_S100000x128_0_1 : (⟨S100000x1, .f32⟩ : BufTy).Contents (Elt F) → (⟨S100000x128, .f32⟩ : BufTy).Contents (Elt F)),
    binary main_v46 main_v54 main_v55 (Host.divf : (⟨S100000x128, .f32⟩ : BufTy).Contents (Elt F) → (⟨S100000x128, .f32⟩ : BufTy).Contents (Elt F) → (⟨S100000x128, .f32⟩ : BufTy).Contents (Elt F)),
    unary main_arg7 main_v56 ((transpose S128x128 [1, 0] · transposes_S128x128_S128x128_1_0) : (⟨S128x128, .f32⟩ : BufTy).Contents (Elt F) → (⟨S128x128, .f32⟩ : BufTy).Contents (Elt F)),
    binary main_v55 main_v56 main_v57 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v58 (broadcastInDim S1x128 ![1] bcast_S128_S1x128_1 : (⟨S128, .f32⟩ : BufTy).Contents (Elt F) → (⟨S1x128, .f32⟩ : BufTy).Contents (Elt F)),
    unary main_v58 main_v59 (broadcastInDim S100000x128 ![0, 1] bcast_S1x128_S100000x128_0_1 : (⟨S1x128, .f32⟩ : BufTy).Contents (Elt F) → (⟨S100000x128, .f32⟩ : BufTy).Contents (Elt F)),
    binary main_v57 main_v59 main_v60 (addf : (⟨S100000x128, .f32⟩ : BufTy).Contents (Elt F) → (⟨S100000x128, .f32⟩ : BufTy).Contents (Elt F) → (⟨S100000x128, .f32⟩ : BufTy).Contents (Elt F)),
    unary main_arg9 main_v61 ((transpose S128x128 [1, 0] · transposes_S128x128_S128x128_1_0) : (⟨S128x128, .f32⟩ : BufTy).Contents (Elt F) → (⟨S128x128, .f32⟩ : BufTy).Contents (Elt F)),
    binary main_v36 main_v61 main_v62 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v60 main_v62 main_v63 (addf : (⟨S100000x128, .f32⟩ : BufTy).Contents (Elt F) → (⟨S100000x128, .f32⟩ : BufTy).Contents (Elt F) → (⟨S100000x128, .f32⟩ : BufTy).Contents (Elt F)) ]

/-- The second layer's rectifier: `main_call1_cst`, `main_call1_v0`, `main_v64`. -/
abbrev opsCr : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v63) (TRef.of (T := ⟨S100000x128, .f32⟩) main_call1_v0) (TRef.of (T := ⟨S100000x128, .f32⟩) main_v64) maximumf ]

/-- The output projection: `main_v65` … `main_v69`. -/
abbrev opsD1 : List (HloOp τ sig (Elt F)) :=
  [ unary main_arg10 main_v65 ((transpose S128x40 [1, 0] · transposes_S40x128_S128x40_1_0) : (⟨S40x128, .f32⟩ : BufTy).Contents (Elt F) → (⟨S128x40, .f32⟩ : BufTy).Contents (Elt F)),
    binary main_v64 main_v65 main_v66 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg11 main_v67 (broadcastInDim S1x40 ![1] bcast_S40_S1x40_1 : (⟨S40, .f32⟩ : BufTy).Contents (Elt F) → (⟨S1x40, .f32⟩ : BufTy).Contents (Elt F)),
    unary main_v67 main_v68 (broadcastInDim S100000x40 ![0, 1] bcast_S1x40_S100000x40_0_1 : (⟨S1x40, .f32⟩ : BufTy).Contents (Elt F) → (⟨S100000x40, .f32⟩ : BufTy).Contents (Elt F)),
    binary main_v66 main_v68 main_v69 (addf : (⟨S100000x40, .f32⟩ : BufTy).Contents (Elt F) → (⟨S100000x40, .f32⟩ : BufTy).Contents (Elt F) → (⟨S100000x40, .f32⟩ : BufTy).Contents (Elt F)) ]

/-- The row maximum subtracted: `main_call2_cst` … `main_call2_v5`. -/
abbrev opsD2 : List (HloOp τ sig (Elt F)) :=
  [ TRef.nullary (TRef.of (T := ⟨S_, .f32⟩) main_call2_cst) (constant S_ .f32 0xFF800000#32),
    TRef.binary (TRef.of (T := ⟨S100000x40, .f32⟩) main_v69) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v69) (TRef.of (T := ⟨S100000x40, .f32⟩) main_call2_v4) (TRef.of (T := ⟨S100000x40, .f32⟩) main_call2_v5) subf ]

/-- The logarithm of the row sums of exponentials subtracted: `main_call2_v6` … `main_v70`. -/
abbrev opsD3 : List (HloOp τ sig (Elt F)) :=
  [ TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v70) subf ]

end Pieces

theorem opsB_split : opsB (F := Ideal) = opsBm ++ opsBr := rfl
theorem opsC_split : opsC (F := Ideal) = opsCm ++ opsCr := rfl
theorem opsD_split : opsD (F := Ideal) = opsD1 ++ opsD2 ++ opsD3 := rfl

/-! ## Each stretch's result, from any contents -/

section Stages

variable (V : Valuation τ sig (Elt Ideal))

theorem opsA_v1 : after (opsA (F := Ideal)) V (Proc.devRef .tc main_v1) = Spelled.src (V (Proc.devRef .tc main_arg1)) := by
  after_results <;> rfl
theorem opsA_v3 : after (opsA (F := Ideal)) V (Proc.devRef .tc main_v3) = Spelled.dst (V (Proc.devRef .tc main_arg1)) := by
  after_results <;> rfl
theorem opsA_v8 : after (opsA (F := Ideal)) V (Proc.devRef .tc main_v8)
    = Spelled.pre (V (Proc.devRef .tc main_arg0)) (V (Proc.devRef .tc main_arg2)) (V (Proc.devRef .tc main_arg3)) := by
  after_results <;> rfl

theorem opsBm_v35 : after (opsBm (F := Ideal)) V (Proc.devRef .tc main_v35)
    = preRelu (V (Proc.devRef .tc main_v8)) (V (Proc.devRef .tc main_v1)) (V (Proc.devRef .tc main_v3)) (V (Proc.devRef .tc main_arg4)) (V (Proc.devRef .tc main_arg5)) (V (Proc.devRef .tc main_arg6)) := by
  after_results_simp <;> rfl
theorem opsBr_v36 : after (opsBr (F := Ideal)) V (Proc.devRef .tc main_v36) = relu (V (Proc.devRef .tc main_v35)) := by
  after_results <;> rfl
theorem opsB_v36 : after (opsB (F := Ideal)) V (Proc.devRef .tc main_v36)
    = Spelled.layer (V (Proc.devRef .tc main_v8)) (V (Proc.devRef .tc main_v1)) (V (Proc.devRef .tc main_v3)) (V (Proc.devRef .tc main_arg4)) (V (Proc.devRef .tc main_arg5)) (V (Proc.devRef .tc main_arg6)) := by
  rw [opsB_split, Cert.RegionOp.after_append, opsBr_v36, opsBm_v35, layer_eq]

theorem opsCm_v63 : after (opsCm (F := Ideal)) V (Proc.devRef .tc main_v63)
    = preRelu (V (Proc.devRef .tc main_v36)) (V (Proc.devRef .tc main_v1)) (V (Proc.devRef .tc main_v3)) (V (Proc.devRef .tc main_arg7)) (V (Proc.devRef .tc main_arg8)) (V (Proc.devRef .tc main_arg9)) := by
  after_results_simp <;> rfl
theorem opsCr_v64 : after (opsCr (F := Ideal)) V (Proc.devRef .tc main_v64) = relu (V (Proc.devRef .tc main_v63)) := by
  after_results <;> rfl
theorem opsC_v64 : after (opsC (F := Ideal)) V (Proc.devRef .tc main_v64)
    = Spelled.layer (V (Proc.devRef .tc main_v36)) (V (Proc.devRef .tc main_v1)) (V (Proc.devRef .tc main_v3)) (V (Proc.devRef .tc main_arg7)) (V (Proc.devRef .tc main_arg8)) (V (Proc.devRef .tc main_arg9)) := by
  rw [opsC_split, Cert.RegionOp.after_append, opsCr_v64, opsCm_v63, layer_eq]

theorem opsD1_v69 : after (opsD1 (F := Ideal)) V (Proc.devRef .tc main_v69)
    = Spelled.logits (V (Proc.devRef .tc main_v64)) (V (Proc.devRef .tc main_arg10)) (V (Proc.devRef .tc main_arg11)) := by
  after_results <;> rfl
theorem opsD2_v5 : after (opsD2 (F := Ideal)) V (Proc.devRef .tc main_call2_v5) = Spelled.shifted (V (Proc.devRef .tc main_v69)) := by
  after_results
  simp only [Cert.TypedRef.ofBuf_toBuf]
  rfl
theorem opsD3_v70 : after (opsD3 (F := Ideal)) V (Proc.devRef .tc main_v70) = lessLogSumExp (V (Proc.devRef .tc main_call2_v5)) := by
  after_results
  simp only [Cert.TypedRef.ofBuf_toBuf]
  rfl
theorem opsD_v70 : after (opsD (F := Ideal)) V (Proc.devRef .tc main_v70)
    = Spelled.post (V (Proc.devRef .tc main_v64)) (V (Proc.devRef .tc main_arg10)) (V (Proc.devRef .tc main_arg11)) := by
  rw [opsD_split, Cert.RegionOp.after_append, Cert.RegionOp.after_append, opsD3_v70, opsD2_v5, opsD1_v69]
  rfl

end Stages

/-! ## What each stretch leaves alone -/

/-- An operation writing one reference of a list writes inside the list. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references the stretch writes, in order. -/
abbrev writesA : List (Ref sig .tc) := [main_v0, main_v1, main_v2, main_v3, main_v4, main_v5, main_v6, main_v7, main_v8]
theorem opsA_writes : (opsA (F := Ideal)).Forall fun op => op.writes ⊆ ((writesA).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A reference the stretch does not write keeps its contents. -/
theorem opsA_keep (V : Valuation τ sig (Elt Ideal)) {r : Ref sig .tc} (hr : r ∉ writesA) :
    after (opsA (F := Ideal)) V (Proc.devRef .tc r) = V (Proc.devRef .tc r) :=
  after_of_writes_sub _ V opsA_writes hr

/-- The references the stretch writes, in order. -/
abbrev writesB : List (Ref sig .tc) := [main_c, main_v9, main_v10, main_c_0, main_v11, main_v12, main_v13, main_v14, main_v15, main_cst, main_v16, main_v17, main_v18, main_cst_1, main_v19, main_cst_2, main_v20, main_v21, main_v22, main_cst_3, main_v23, main_v24, main_v25, main_v26, main_v27, main_v28, main_v29, main_v30, main_v31, main_v32, main_v33, main_v34, main_v35, main_call0_cst, main_call0_v0, main_v36]
theorem opsB_writes : (opsB (F := Ideal)).Forall fun op => op.writes ⊆ ((writesB).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A reference the stretch does not write keeps its contents. -/
theorem opsB_keep (V : Valuation τ sig (Elt Ideal)) {r : Ref sig .tc} (hr : r ∉ writesB) :
    after (opsB (F := Ideal)) V (Proc.devRef .tc r) = V (Proc.devRef .tc r) :=
  after_of_writes_sub _ V opsB_writes hr

/-- The references the stretch writes, in order. -/
abbrev writesC : List (Ref sig .tc) := [main_c_4, main_v37, main_v38, main_c_5, main_v39, main_v40, main_v41, main_v42, main_v43, main_cst_6, main_v44, main_v45, main_v46, main_cst_7, main_v47, main_cst_8, main_v48, main_v49, main_v50, main_cst_9, main_v51, main_v52, main_v53, main_v54, main_v55, main_v56, main_v57, main_v58, main_v59, main_v60, main_v61, main_v62, main_v63, main_call1_cst, main_call1_v0, main_v64]
theorem opsC_writes : (opsC (F := Ideal)).Forall fun op => op.writes ⊆ ((writesC).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A reference the stretch does not write keeps its contents. -/
theorem opsC_keep (V : Valuation τ sig (Elt Ideal)) {r : Ref sig .tc} (hr : r ∉ writesC) :
    after (opsC (F := Ideal)) V (Proc.devRef .tc r) = V (Proc.devRef .tc r) :=
  after_of_writes_sub _ V opsC_writes hr

/-- The references the stretch writes, in order. -/
abbrev writesD : List (Ref sig .tc) := [main_v65, main_v66, main_v67, main_v68, main_v69, main_call2_cst, main_call2_v0, main_call2_cst_0, main_call2_v1, main_call2_v2, main_call2_v3, main_call2_v4, main_call2_v5, main_call2_v6, main_call2_cst_1, main_call2_v7, main_call2_v8, main_call2_v9, main_call2_v10, main_v70]
theorem opsD_writes : (opsD (F := Ideal)).Forall fun op => op.writes ⊆ ((writesD).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A reference the stretch does not write keeps its contents. -/
theorem opsD_keep (V : Valuation τ sig (Elt Ideal)) {r : Ref sig .tc} (hr : r ∉ writesD) :
    after (opsD (F := Ideal)) V (Proc.devRef .tc r) = V (Proc.devRef .tc r) :=
  after_of_writes_sub _ V opsD_writes hr

/-! ## The whole run -/

section Whole

variable (m : (ℓ : Loc nD τ sig) → Buf (Elt Ideal) ℓ) (c : Dev nD)

/-- The input projection of the launch's node features. -/
def h0 : FVec Ideal S100000x128 .f32 :=
  Spelled.pre (m ((c.tc : Thread nD τ).loc main_arg0)) (m ((c.tc : Thread nD τ).loc main_arg2)) (m ((c.tc : Thread nD τ).loc main_arg3))

/-- The first layer's output. -/
def h1 : FVec Ideal S100000x128 .f32 :=
  Spelled.layer (h0 m c) (Spelled.src (m ((c.tc : Thread nD τ).loc main_arg1))) (Spelled.dst (m ((c.tc : Thread nD τ).loc main_arg1)))
    (m ((c.tc : Thread nD τ).loc main_arg4)) (m ((c.tc : Thread nD τ).loc main_arg5)) (m ((c.tc : Thread nD τ).loc main_arg6))

/-- The second layer's output. -/
def h2 : FVec Ideal S100000x128 .f32 :=
  Spelled.layer (h1 m c) (Spelled.src (m ((c.tc : Thread nD τ).loc main_arg1))) (Spelled.dst (m ((c.tc : Thread nD τ).loc main_arg1)))
    (m ((c.tc : Thread nD τ).loc main_arg7)) (m ((c.tc : Thread nD τ).loc main_arg8)) (m ((c.tc : Thread nD τ).loc main_arg9))

/-- The program's result: the log-softmax of the output projection of the second layer's output. -/
def out : FVec Ideal S100000x40 .f32 :=
  Spelled.post (h2 m c) (m ((c.tc : Thread nD τ).loc main_arg10)) (m ((c.tc : Thread nD τ).loc main_arg11))

/-- The four stretches in order leave the result buffer at the stages' composition. -/
theorem after_ops_v70 :
    after (ops (F := Ideal)) (launchContents m c) (Proc.devRef .tc main_v70) = out m c := by
  show after (opsA ++ opsB ++ opsC ++ opsD) _ _ = _
  rw [Cert.RegionOp.after_append, Cert.RegionOp.after_append, Cert.RegionOp.after_append]
  rw [opsD_v70, opsC_v64, opsC_keep _ (r := main_arg10) (by decide), opsC_keep _ (r := main_arg11) (by decide)]
  rw [opsB_v36, opsB_keep _ (r := main_v1) (by decide), opsB_keep _ (r := main_v3) (by decide), opsB_keep _ (r := main_arg7) (by decide), opsB_keep _ (r := main_arg8) (by decide), opsB_keep _ (r := main_arg9) (by decide), opsB_keep _ (r := main_arg10) (by decide), opsB_keep _ (r := main_arg11) (by decide)]
  rw [opsA_v8, opsA_v1, opsA_v3, opsA_keep _ (r := main_arg4) (by decide), opsA_keep _ (r := main_arg5) (by decide), opsA_keep _ (r := main_arg6) (by decide), opsA_keep _ (r := main_arg7) (by decide), opsA_keep _ (r := main_arg8) (by decide), opsA_keep _ (r := main_arg9) (by decide), opsA_keep _ (r := main_arg10) (by decide), opsA_keep _ (r := main_arg11) (by decide)]
  unfold out h2 h1 h0
  rfl

/-- A reference no stretch writes ends as launched. -/
theorem after_ops_keep (V : Valuation τ sig (Elt Ideal)) {r : Ref sig .tc}
    (hA : r ∉ writesA) (hB : r ∉ writesB) (hC : r ∉ writesC) (hD : r ∉ writesD) :
    after (ops (F := Ideal)) V (Proc.devRef .tc r) = V (Proc.devRef .tc r) := by
  show after (opsA ++ opsB ++ opsC ++ opsD) _ _ = _
  rw [Cert.RegionOp.after_append, Cert.RegionOp.after_append, Cert.RegionOp.after_append,
    opsD_keep _ hD, opsC_keep _ hC, opsB_keep _ hB, opsA_keep _ hA]

end Whole

/-- On every device, over the extended reals, from any memory with zero counters: every weakly fair execution of
    @main terminates with the result buffer at `out` — the stages' composition over the launch contents of the
    arguments — and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v70) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v70).trans (after_ops_v70 m c),
      (h c main_arg0).trans (after_ops_keep (launchContents m c) (r := main_arg0) (by decide) (by decide) (by decide) (by decide)),
      (h c main_arg1).trans (after_ops_keep (launchContents m c) (r := main_arg1) (by decide) (by decide) (by decide) (by decide)),
      (h c main_arg2).trans (after_ops_keep (launchContents m c) (r := main_arg2) (by decide) (by decide) (by decide) (by decide)),
      (h c main_arg3).trans (after_ops_keep (launchContents m c) (r := main_arg3) (by decide) (by decide) (by decide) (by decide)),
      (h c main_arg4).trans (after_ops_keep (launchContents m c) (r := main_arg4) (by decide) (by decide) (by decide) (by decide)),
      (h c main_arg5).trans (after_ops_keep (launchContents m c) (r := main_arg5) (by decide) (by decide) (by decide) (by decide)),
      (h c main_arg6).trans (after_ops_keep (launchContents m c) (r := main_arg6) (by decide) (by decide) (by decide) (by decide)),
      (h c main_arg7).trans (after_ops_keep (launchContents m c) (r := main_arg7) (by decide) (by decide) (by decide) (by decide)),
      (h c main_arg8).trans (after_ops_keep (launchContents m c) (r := main_arg8) (by decide) (by decide) (by decide) (by decide)),
      (h c main_arg9).trans (after_ops_keep (launchContents m c) (r := main_arg9) (by decide) (by decide) (by decide) (by decide)),
      (h c main_arg10).trans (after_ops_keep (launchContents m c) (r := main_arg10) (by decide) (by decide) (by decide) (by decide)),
      (h c main_arg11).trans (after_ops_keep (launchContents m c) (r := main_arg11) (by decide) (by decide) (by decide) (by decide))⟩)
    (run_raw m ρ)

end Cert.ReferenceIdeal.RefValue

end
-- ==== Proof.lean ====
/-
  A two-layer mean-aggregating graph network, as a kernel of four pipelined regions and as a plain array program,
  computes one function of its twelve argument arrays on the extended reals.

  Both programs compute h0 = X · W_preᵀ + b_pre; twice h ← relu((S(h) / max(n, 1)) · Wlᵀ + h · Wrᵀ + bl), where S(h) sums
  the rows of h over each node's incoming edges and n counts them; then the logits h · W_postᵀ + b_post and their
  row-wise log-softmax.  The kernel computes each dense stage in a region of 20 row blocks and the sums and counts by
  the same gather and scatter the reference uses; a change of float format is the identity here, a matrix product into
  a zero accumulator is the host's product, and the two orders in which a layer adds its bias agree because addition of
  extended reals is commutative and associative.  The last stage differs: the kernel subtracts m + log Σ exp(x - m)
  from x, the reference subtracts m and then the logarithm.  On the extended reals these agree when the row maximum m
  is a real number.  The precondition says every float argument is finite, every stage keeps entries real, so the logits
  and their row maxima are real, and the two results are equal entry by entry.

  The frames of the two kernel programs are the generated ones; the reference's is its run with the result dropped;
  the idealization rewrote no operation, so what it preserves is trivial.
-/
import proofs.«143336_j31722628448446_1_alg».proof.Defs
import proofs.«143336_j31722628448446_1_alg».proof.Proof.Gen.Kernel
import proofs.«143336_j31722628448446_1_alg».proof.Proof.Gen.Kernel.Skeleton
import proofs.«143336_j31722628448446_1_alg».proof.Proof.Gen.Kernel.Launch
import proofs.«143336_j31722628448446_1_alg».proof.Proof.Gen.Kernel.Points
import proofs.«143336_j31722628448446_1_alg».proof.Proof.Gen.Kernel.Frame
import proofs.«143336_j31722628448446_1_alg».proof.Proof.Gen.KernelIdeal
import proofs.«143336_j31722628448446_1_alg».proof.Proof.Gen.KernelIdeal.Skeleton
import proofs.«143336_j31722628448446_1_alg».proof.Proof.Gen.KernelIdeal.Launch
import proofs.«143336_j31722628448446_1_alg».proof.Proof.Gen.KernelIdeal.Points
import proofs.«143336_j31722628448446_1_alg».proof.Proof.Gen.KernelIdeal.Frame
import proofs.«143336_j31722628448446_1_alg».proof.Proof.Gen.ReferenceIdeal
import proofs.«143336_j31722628448446_1_alg».proof.Proof.Gen.Pre_finite_inputs
import proofs.«143336_j31722628448446_1_alg».proof.Proof.FoldC
import proofs.«143336_j31722628448446_1_alg».proof.Proof.Agree
import proofs.«143336_j31722628448446_1_alg».proof.Proof.FiniteInputs
import proofs.«143336_j31722628448446_1_alg».proof.Proof.RefValue
import Idealize.ShloMosaic.Adequacy
import Idealize.ShloMosaic.Init

set_option maxRecDepth 16384

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- From memories agreeing on the arguments, finite on the kernel's side, both programs end with the network of the
    kernel's launch contents in their result buffers. -/
theorem algebraic : Cert.algebraic_KernelIdeal_ReferenceIdeal := by
  intro m ρ m' ρ' hpre hagree
  refine ⟨fun c => Cert.KernelIdeal.Fold.out m c, Cert.KernelIdeal.Fold.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9, e10, e11⟩ := hagree c
  obtain ⟨r0, r2, r3, r4, r5, r6, r7, r8, r9, r10, r11⟩ :=
    Cert.FiniteInputs.inputs_real _ _ _ _ _ _ _ _ _ _ _ _ (hpre c)
  show Cert.ReferenceIdeal.RefValue.out m' c = Cert.KernelIdeal.Fold.out m c
  rw [Cert.Agree.kernel_out]
  unfold Cert.ReferenceIdeal.RefValue.out Cert.ReferenceIdeal.RefValue.h2 Cert.ReferenceIdeal.RefValue.h1
    Cert.ReferenceIdeal.RefValue.h0
  rw [e0, e1, e2, e3, e4, e5, e6, e7, e8, e9, e10, e11]
  exact Cert.Bridge.networks_agree _ _ _ _ _ _ _ _ _ _ _ _ _ r0 r2 r3 r4 r5 r6 r7 r8 r9 r10 r11

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
